-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩
abbrev S64 : Shape := ⟨1, ![64]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel
  bcast_S_S64x2048x1 : S_.BroadcastsInDim S64x2048x1 (![] : Fin 0 → Fin S64x2048x1.rank)
  reducesTo_S64x2048x1_S_d0_1_2 : S64x2048x1.ReducesTo [0, 1, 2] S_
  bcast_S_S300x1024 : S_.BroadcastsInDim S300x1024 (![] : Fin 0 → Fin S300x1024.rank)
  reducesTo_S300x1024_S_d0_1 : S300x1024.ReducesTo [0, 1] S_
  bcast_S_S300 : S_.BroadcastsInDim S300 (![] : Fin 0 → Fin S300.rank)
  reducesTo_S300_S_d0 : S300.ReducesTo [0] S_
  bcast_S_S2x300 : S_.BroadcastsInDim S2x300 (![] : Fin 0 → Fin S2x300.rank)
  reducesTo_S2x300_S_d0_1 : S2x300.ReducesTo [0, 1] S_
  bcast_S_S2 : S_.BroadcastsInDim S2 (![] : Fin 0 → Fin S2.rank)
  reducesTo_S2_S_d0 : S2.ReducesTo [0] S_
  bcast_S_S64x2048 : S_.BroadcastsInDim S64x2048 (![] : Fin 0 → Fin S64x2048.rank)
  reducesTo_S64x2048_S64_d1 : S64x2048.ReducesTo [1] S64
  bcast_S_S64 : S_.BroadcastsInDim S64 (![] : Fin 0 → Fin S64.rank)
  reducesTo_S64_S_d0 : S64.ReducesTo [0] S_

variable [Facts]

def reducer_argmax_i1_i32 : BitVec 1 × BitVec 32 → BitVec 1 × BitVec 32 → BitVec 1 × BitVec 32 :=
  fun a b =>
    let v40 := IntOp.cmpi .ugt a.1 b.1
    let v41 := IntOp.cmpi .ne a.1 a.1
    let v42 := IntOp.ori v40 v41
    let v43 := IntOp.cmpi .eq a.1 b.1
    let v44 := IntOp.cmpi .slt a.2 b.2
    let v45 := IntOp.andi v43 v44
    let v46 := Scalar.select v42 a.1 b.1
    let v47 := IntOp.ori v42 v45
    let v48 := Scalar.select v47 a.2 b.2
    (v46, v48)
def fn_part2 {F : FTy → Type} [FloatOps F] (main_v28 : IVec S_ 1) (main_v30 : IVec S64x2048 1) (main_v31 : IVec S64 1) (main_v32 : IVec S64x2048 32) (main_c_12 : IVec S_ 1) : IVec S_ 1 :=
  let main_c_13 : IVec S_ 32 := constantI S_ 32 0#32
  let main_v33_0 : IVec S64 1 := (fun x y u v j => (Host.reduce2 reducer_argmax_i1_i32 x y u v reducesTo_S64x2048_S64_d1 h_S_ j).1) main_v30 main_v32 main_c_12 main_c_13
  let main_v33_1 : IVec S64 32 := (fun x y u v j => (Host.reduce2 reducer_argmax_i1_i32 x y u v reducesTo_S64x2048_S64_d1 h_S_ j).2) main_v30 main_v32 main_c_12 main_c_13
  let main_c_14 : IVec S_ 32 := constantI S_ 32 64#32
  let main_v34 : IVec S64 32 := broadcastInDim S64 ![] bcast_S_S64 main_c_14
  let main_v35 : IVec S64 32 := select main_v31 main_v33_1 main_v34
  let main_c_15 : IVec S_ 32 := constantI S_ 32 0#32
  let main_v36 : IVec S64 32 := broadcastInDim S64 ![] bcast_S_S64 main_c_15
  let main_v37 : IVec S64 1 := cmpi .ne main_v35 main_v36
  let main_c_16 : IVec S_ 1 := constantI S_ 1 1#1
  let main_v38 : IVec S_ 1 := (fun x v => Host.reduce IntOp.andi x v reducesTo_S64_S_d0 h_S_) main_v37 main_c_16
  let main_v39 : IVec S_ 1 := andi main_v28 main_v38
  main_v39

def fn_part1 {F : FTy → Type} [FloatOps F] (main_arg1 : IVec S64x2048 32) (main_arg5 : FVec F S2x300 .f32) (main_arg6 : FVec F S2 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S2x300 .f32 := Host.absf main_arg5
  let main_cst_6 : FVec F S_ .f32 := constant S_ .f32 0x7F800000#32
  let main_v20 : FVec F S2x300 .f32 := broadcastInDim S2x300 ![] bcast_S_S2x300 main_cst_6
  let main_v21 : IVec S2x300 1 := cmpf .olt main_v19 main_v20
  let main_c_7 : IVec S_ 1 := constantI S_ 1 1#1
  let main_v22 : IVec S_ 1 := (fun x v => Host.reduce IntOp.andi x v reducesTo_S2x300_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 1#32
  let main_v29 : IVec S64x2048 32 := broadcastInDim S64x2048 ![] bcast_S_S64x2048 main_c_10
  let main_v30 : IVec S64x2048 1 := cmpi .eq main_arg1 main_v29
  let main_c_11 : IVec S_ 1 := constantI S_ 1 0#1
  let main_v31 : IVec S64 1 := (fun x v => Host.reduce IntOp.ori x v reducesTo_S64x2048_S64_d1 h_S_) main_v30 main_c_11
  let main_v32 : IVec S64x2048 32 := iotaInDim S64x2048 32 1
  let main_c_12 : IVec S_ 1 := constantI S_ 1 0#1
  fn_part2 (F := F) main_v28 main_v30 main_v31 main_v32 main_c_12

def fn {F : FTy → Type} [FloatOps F] (main_arg0 : FVec F S64x2048x1024 .f32) (main_arg1 : IVec S64x2048 32) (main_arg2 : FVec F S64x2048x1 .f32) (main_arg3 : FVec F S300x1024 .f32) (main_arg4 : FVec F S300 .f32) (main_arg5 : FVec F S2x300 .f32) (main_arg6 : FVec F S2 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  let main_v4 : FVec F S64x2048x1 .f32 := Host.absf main_arg2
  let main_cst_0 : FVec F S_ .f32 := constant S_ .f32 0x7F800000#32
  let main_v5 : FVec F S64x2048x1 .f32 := broadcastInDim S64x2048x1 ![] bcast_S_S64x2048x1 main_cst_0
  let main_v6 : IVec S64x2048x1 1 := cmpf .olt main_v4 main_v5
  let main_c_1 : IVec S_ 1 := constantI S_ 1 1#1
  let main_v7 : IVec S_ 1 := (fun x v => Host.reduce IntOp.andi x v reducesTo_S64x2048x1_S_d0_1_2 h_S_) main_v6 main_c_1
  let main_v8 : IVec S_ 1 := andi main_v3 main_v7
  let main_v9 : FVec F S300x1024 .f32 := Host.absf main_arg3
  let main_cst_2 : FVec F S_ .f32 := constant S_ .f32 0x7F800000#32
  let main_v10 : FVec F S300x1024 .f32 := broadcastInDim S300x1024 ![] bcast_S_S300x1024 main_cst_2
  let main_v11 : IVec S300x1024 1 := cmpf .olt main_v9 main_v10
  let main_c_3 : IVec S_ 1 := constantI S_ 1 1#1
  let main_v12 : IVec S_ 1 := (fun x v => Host.reduce IntOp.andi x v reducesTo_S300x1024_S_d0_1 h_S_) main_v11 main_c_3
  let main_v13 : IVec S_ 1 := andi main_v8 main_v12
  let main_v14 : FVec F S300 .f32 := Host.absf main_arg4
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg1 main_arg5 main_arg6 main_v13 main_v16
-- ==== Kernel.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩
abbrev S64 : Shape := ⟨1, ![64]⟩
abbrev S2048 : Shape := ⟨1, ![2048]⟩
abbrev S1x2048 : Shape := ⟨2, ![1, 2048]⟩
abbrev S64x1 : Shape := ⟨2, ![64, 1]⟩
abbrev S64x2 : Shape := ⟨2, ![64, 2]⟩
abbrev S16x256x1024 : Shape := ⟨3, ![16, 256, 1024]⟩
abbrev S16x256x1 : Shape := ⟨3, ![16, 256, 1]⟩
abbrev S16x1 : Shape := ⟨2, ![16, 1]⟩
abbrev S16x2 : Shape := ⟨2, ![16, 2]⟩
abbrev S16x1024 : Shape := ⟨2, ![16, 1024]⟩
abbrev S16x32x1024 : Shape := ⟨3, ![16, 32, 1024]⟩
abbrev S16x32x1 : Shape := ⟨3, ![16, 32, 1]⟩
abbrev S16x300 : Shape := ⟨2, ![16, 300]⟩
abbrev S1x300 : Shape := ⟨2, ![1, 300]⟩
abbrev S1x2 : Shape := ⟨2, ![1, 2]⟩

abbrev nBuf : Space → Nat
  | .hbm => 37
  | .vmem => 13
  | .smem => 0
  | _ => 0

abbrev bufTy : (tb : Table) → Fin (tcTables nBuf tb) → BufTy
  | .hbm, ⟨0, _⟩ => ⟨S64x2048x1024, .f32⟩
  | .hbm, ⟨1, _⟩ => ⟨S64x2048, .i32⟩
  | .hbm, ⟨2, _⟩ => ⟨S64x2048x1, .f32⟩
  | .hbm, ⟨3, _⟩ => ⟨S300x1024, .f32⟩
  | .hbm, ⟨4, _⟩ => ⟨S300, .f32⟩
  | .hbm, ⟨5, _⟩ => ⟨S2x300, .f32⟩
  | .hbm, ⟨6, _⟩ => ⟨S2, .f32⟩
  | .hbm, ⟨7, _⟩ => ⟨S_, .i32⟩
  | .hbm, ⟨8, _⟩ => ⟨S64x2048, .i32⟩
  | .hbm, ⟨9, _⟩ => ⟨S64x2048, .i1⟩
  | .hbm, ⟨10, _⟩ => ⟨S_, .i1⟩
  | .hbm, ⟨11, _⟩ => ⟨S64, .i1⟩
  | .hbm, ⟨12, _⟩ => ⟨S64x2048, .i32⟩
  | .hbm, ⟨13, _⟩ => ⟨S_, .i1⟩
  | .hbm, ⟨14, _⟩ => ⟨S_, .i32⟩
  | .hbm, ⟨15, _⟩ => ⟨S64, .i1⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .f32⟩
  | .hbm, ⟨22, _⟩ => ⟨S2048, .i32⟩
  | .hbm, ⟨23, _⟩ => ⟨S1x2048, .i32⟩
  | .hbm, ⟨24, _⟩ => ⟨S64x1, .i32⟩
  | .hbm, ⟨25, _⟩ => ⟨S64x2048, .i32⟩
  | .hbm, ⟨26, _⟩ => ⟨S64x2048, .i32⟩
  | .hbm, ⟨27, _⟩ => ⟨S64x2048, .i1⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048x1, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x2, .f32⟩
  | .local _ .vmem, ⟨0, _⟩ => ⟨S16x256x1024, .f32⟩
  | .local _ .vmem, ⟨1, _⟩ => ⟨S16x256x1024, .f32⟩
  | .local _ .vmem, ⟨2, _⟩ => ⟨S16x256x1, .f32⟩
  | .local _ .vmem, ⟨3, _⟩ => ⟨S16x256x1, .f32⟩
  | .local _ .vmem, ⟨4, _⟩ => ⟨S16x1, .f32⟩
  | .local _ .vmem, ⟨5, _⟩ => ⟨S16x1, .f32⟩
  | .local _ .vmem, ⟨6, _⟩ => ⟨S300x1024, .f32⟩
  | .local _ .vmem, ⟨7, _⟩ => ⟨S300, .f32⟩
  | .local _ .vmem, ⟨8, _⟩ => ⟨S2x300, .f32⟩
  | .local _ .vmem, ⟨9, _⟩ => ⟨S2, .f32⟩
  | .local _ .vmem, ⟨10, _⟩ => ⟨S16x2, .f32⟩
  | .local _ .vmem, ⟨11, _⟩ => ⟨S16x2, .f32⟩
  | .local _ .vmem, ⟨12, _⟩ => ⟨S16x1024, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32_1 : BitVec 32 := 0#32
  let c32_i32 : BitVec 32 := 32#32
  let v4 : BitVec 32 := Scalar.muli c0_i32_1 c32_i32
  v4
def k0_off1 (c0_i32_1 : BitVec 32) : Fin 3 → Nat :=
  let c0 : Index := 0#32
  let c32_i32 : BitVec 32 := 32#32
  let v4 : BitVec 32 := Scalar.muli c0_i32_1 c32_i32
  let v5 : BitVec 32 := v4
  let v6 : Index := Scalar.indexCast v5
  let c0_2 : Index := 0#32
  ![0, v6.toNat, 0]
def k0_off2 (c0_i32_1 : BitVec 32) : Fin 3 → Nat :=
  let c0_3 : Index := 0#32
  let c32_i32 : BitVec 32 := 32#32
  let v4 : BitVec 32 := Scalar.muli c0_i32_1 c32_i32
  let v5 : BitVec 32 := v4
  let v8 : Index := Scalar.indexCast v5
  let c0_4 : Index := 0#32
  ![0, v8.toNat, 0]
def k0_mult2 : BitVec 32 :=
  let c1_i32 : BitVec 32 := 1#32
  let c32_i32_6 : BitVec 32 := 32#32
  let v15 : BitVec 32 := Scalar.muli c1_i32 c32_i32_6
  v15
def k0_mult3 : BitVec 32 :=
  let c2_i32 : BitVec 32 := 2#32
  let c32_i32_12 : BitVec 32 := 32#32
  let v26 : BitVec 32 := Scalar.muli c2_i32 c32_i32_12
  v26
def k0_mult4 : BitVec 32 :=
  let c3_i32 : BitVec 32 := 3#32
  let c32_i32_18 : BitVec 32 := 32#32
  let v37 : BitVec 32 := Scalar.muli c3_i32 c32_i32_18
  v37
def k0_mult5 : BitVec 32 :=
  let c4_i32 : BitVec 32 := 4#32
  let c32_i32_24 : BitVec 32 := 32#32
  let v48 : BitVec 32 := Scalar.muli c4_i32 c32_i32_24
  v48
def k0_mult6 : BitVec 32 :=
  let c5_i32 : BitVec 32 := 5#32
  let c32_i32_30 : BitVec 32 := 32#32
  let v59 : BitVec 32 := Scalar.muli c5_i32 c32_i32_30
  v59
def k0_mult7 : BitVec 32 :=
  let c6_i32 : BitVec 32 := 6#32
  let c32_i32_36 : BitVec 32 := 32#32
  let v70 : BitVec 32 := Scalar.muli c6_i32 c32_i32_36
  v70
def k0_mult8 : BitVec 32 :=
  let c7_i32 : BitVec 32 := 7#32
  let c32_i32_42 : BitVec 32 := 32#32
  let v81 : BitVec 32 := Scalar.muli c7_i32 c32_i32_42
  v81
def k0_cond2 (i : grid0.Coords) : BitVec 1 :=
  let arg1 : BitVec 32 := BitVec.ofNat 32 (i 1).val
  let c7_i32_52 : BitVec 32 := 7#32
  let v97 : BitVec 1 := Scalar.cmpi .eq arg1 c7_i32_52
  let v98 : BitVec 32 := Scalar.extui v97
  let c0_i32_53 : BitVec 32 := 0#32
  let v99 : BitVec 1 := Scalar.cmpi .ne v98 c0_i32_53
  v99

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S300x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  shapeCasts_S64x2048x1_S64x2048 : S64x2048x1.ShapeCasts S64x2048
  bcast_S64x2048_S64x2048x1_0_1 : S64x2048.BroadcastsInDim S64x2048x1 (![0, 1] : Fin 2 → Fin S64x2048x1.rank)
  shapeCasts_S64_S64x1 : S64.ShapeCasts S64x1
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  h_S16x32x1024 : 0 < S16x32x1024.numel
  h_S16x32x1 : 0 < S16x32x1.numel
  shapeCasts_S16x32x1_S16x32x1 : S16x32x1.ShapeCasts S16x32x1
  broadcasts_S16x32x1_S16x32x1024 : S16x32x1.Broadcasts S16x32x1024
  reduces_S16x32x1024_S16x1024 : S16x32x1024.Reduces [1] S16x1024
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x1024 : S16x1.Broadcasts S16x1024
  bitsLt_bf16_f32 : FTy.bits .bf16 < FTy.bits .f32
  inb_S300x1024_S300x1024_0_0 : ∀ a, (![0, 0] : Fin 2 → Nat) a + S300x1024.size a ≤ S300x1024.size a
  h_S300x1024 : 0 < S300x1024.numel
  inb_S300_S300_0 : ∀ a, (![0] : Fin 1 → Nat) a + S300.size a ≤ S300.size a
  h_S300 : 0 < S300.numel
  shapeCasts_S300_S1x300 : S300.ShapeCasts S1x300
  broadcasts_S1x300_S16x300 : S1x300.Broadcasts S16x300
  inb_S2x300_S2x300_0_0 : ∀ a, (![0, 0] : Fin 2 → Nat) a + S2x300.size a ≤ S2x300.size a
  h_S2x300 : 0 < S2x300.numel
  inb_S2_S2_0 : ∀ a, (![0] : Fin 1 → Nat) a + S2.size a ≤ S2.size a
  h_S2 : 0 < S2.numel
  shapeCasts_S2_S1x2 : S2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  dot_S16x1024_S300x1024_S16x300_1_1_0_0_n_n_wf : DotDims.WF S16x1024 S300x1024 S16x300 [1] [1] [0] [0] [] []
  dot_S16x300_S2x300_S16x2_1_1_0_0_n_n_wf : DotDims.WF S16x300 S2x300 S16x2 [1] [1] [0] [0] [] []
  hrank0 : 0 < grid0.rank
  k0_mult1_dvd : 32 ∣ k0_mult1.toNat
  k0_off1_inb : ∀ (r : Fin 8), ∀ a, (k0_off1 (BitVec.ofNat 32 r.val)) a + S16x32x1024.size a ≤ S16x256x1024.size a
  k0_off2_inb : ∀ (r : Fin 8), ∀ a, (k0_off2 (BitVec.ofNat 32 r.val)) a + S16x32x1.size a ≤ S16x256x1.size a
  k0_mult2_dvd : 32 ∣ k0_mult2.toNat
  k0_mult3_dvd : 32 ∣ k0_mult3.toNat
  k0_mult4_dvd : 32 ∣ k0_mult4.toNat
  k0_mult5_dvd : 32 ∣ k0_mult5.toNat
  k0_mult6_dvd : 32 ∣ k0_mult6.toNat
  k0_mult7_dvd : 32 ∣ k0_mult7.toNat
  k0_mult8_dvd : 32 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S64x2048x1024.size a
  hwx0_0 : ∀ i : grid0.Coords, EltTy.bits .f32 = 32 ∨ (Rect.block (s := S64x2048x1024) S16x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x1.size a ≤ S64x2048x1.size a
  hwx0_1 : ∀ i : grid0.Coords, EltTy.bits .f32 = 32 ∨ (Rect.block (s := S64x2048x1) S16x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x1024.size a ≤ S300x1024.size a
  hwx0_3 : ∀ i : grid0.Coords, EltTy.bits .f32 = 32 ∨ (Rect.block (s := S300x1024) S300x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x300.size a ≤ S2x300.size a
  hwx0_5 : ∀ i : grid0.Coords, EltTy.bits .f32 = 32 ∨ (Rect.block (s := S2x300) S2x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x2.size a ≤ S64x2.size a
  hwx0_7 : ∀ i : grid0.Coords, EltTy.bits .f32 = 32 ∨ (Rect.block (s := S64x2) S16x2.size (cc0_transform_7 i) (hinb0_7 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S16x1024_S300x1024_S16x300_1_1_0_0_n_n : DotDims S16x1024 S300x1024 S16x300 where
  lhsContracting := [1]
  rhsContracting := [1]
  lhsNonContracting := [0]
  rhsNonContracting := [0]
  lhsBatch := []
  rhsBatch := []
  wf := dot_S16x1024_S300x1024_S16x300_1_1_0_0_n_n_wf
def dot_S16x300_S2x300_S16x2_1_1_0_0_n_n : DotDims S16x300 S2x300 S16x2 where
  lhsContracting := [1]
  rhsContracting := [1]
  lhsNonContracting := [0]
  rhsNonContracting := [0]
  lhsBatch := []
  rhsBatch := []
  wf := dot_S16x300_S2x300_S16x2_1_1_0_0_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S16x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩
abbrev S64 : Shape := ⟨1, ![64]⟩
abbrev S2048 : Shape := ⟨1, ![2048]⟩
abbrev S1x2048 : Shape := ⟨2, ![1, 2048]⟩
abbrev S64x1 : Shape := ⟨2, ![64, 1]⟩
abbrev S64x1024 : Shape := ⟨2, ![64, 1024]⟩
abbrev S1024x300 : Shape := ⟨2, ![1024, 300]⟩
abbrev S64x300 : Shape := ⟨2, ![64, 300]⟩
abbrev S1x300 : Shape := ⟨2, ![1, 300]⟩
abbrev S300x2 : Shape := ⟨2, ![300, 2]⟩
abbrev S64x2 : Shape := ⟨2, ![64, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S64x2048, .i32⟩
  | .hbm, ⟨2, _⟩ => ⟨S64x2048x1, .f32⟩
  | .hbm, ⟨3, _⟩ => ⟨S300x1024, .f32⟩
  | .hbm, ⟨4, _⟩ => ⟨S300, .f32⟩
  | .hbm, ⟨5, _⟩ => ⟨S2x300, .f32⟩
  | .hbm, ⟨6, _⟩ => ⟨S2, .f32⟩
  | .hbm, ⟨7, _⟩ => ⟨S_, .i32⟩
  | .hbm, ⟨8, _⟩ => ⟨S64x2048, .i32⟩
  | .hbm, ⟨9, _⟩ => ⟨S64x2048, .i1⟩
  | .hbm, ⟨10, _⟩ => ⟨S_, .i1⟩
  | .hbm, ⟨11, _⟩ => ⟨S64, .i1⟩
  | .hbm, ⟨12, _⟩ => ⟨S64x2048, .i32⟩
  | .hbm, ⟨13, _⟩ => ⟨S_, .i1⟩
  | .hbm, ⟨14, _⟩ => ⟨S_, .i32⟩
  | .hbm, ⟨15, _⟩ => ⟨S64, .i1⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S2048, .i32⟩
  | .hbm, ⟨22, _⟩ => ⟨S1x2048, .i32⟩
  | .hbm, ⟨23, _⟩ => ⟨S64x1, .i32⟩
  | .hbm, ⟨24, _⟩ => ⟨S64x2048, .i32⟩
  | .hbm, ⟨25, _⟩ => ⟨S64x2048, .i32⟩
  | .hbm, ⟨26, _⟩ => ⟨S64x2048, .i1⟩
  | .hbm, ⟨27, _⟩ => ⟨S64x2048x1024, .f32⟩
  | .hbm, ⟨28, _⟩ => ⟨S64x2048x1024, .f32⟩
  | .hbm, ⟨29, _⟩ => ⟨S64x2048x1, .i1⟩
  | .hbm, ⟨30, _⟩ => ⟨S64x2048x1, .f32⟩
  | .hbm, ⟨31, _⟩ => ⟨S64x2048x1024, .f32⟩
  | .hbm, ⟨32, _⟩ => ⟨S64x2048x1024, .f32⟩
  | .hbm, ⟨33, _⟩ => ⟨S_, .f32⟩
  | .hbm, ⟨34, _⟩ => ⟨S64x1024, .f32⟩
  | .hbm, ⟨35, _⟩ => ⟨S64x1, .i32⟩
  | .hbm, ⟨36, _⟩ => ⟨S64x1, .f32⟩
  | .hbm, ⟨37, _⟩ => ⟨S64x1024, .f32⟩
  | .hbm, ⟨38, _⟩ => ⟨S64x1024, .f32⟩
  | .hbm, ⟨39, _⟩ => ⟨S1024x300, .f32⟩
  | .hbm, ⟨40, _⟩ => ⟨S64x300, .f32⟩
  | .hbm, ⟨41, _⟩ => ⟨S1x300, .f32⟩
  | .hbm, ⟨42, _⟩ => ⟨S64x300, .f32⟩
  | .hbm, ⟨43, _⟩ => ⟨S64x300, .f32⟩
  | .hbm, ⟨44, _⟩ => ⟨S64x300, .f32⟩
  | .hbm, ⟨45, _⟩ => ⟨S300x2, .f32⟩
  | .hbm, ⟨46, _⟩ => ⟨S64x2, .f32⟩
  | .hbm, ⟨47, _⟩ => ⟨S1x2, .f32⟩
  | .hbm, ⟨48, _⟩ => ⟨S64x2, .f32⟩
  | .hbm, ⟨49, _⟩ => ⟨S64x2, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  bcast_S64x2048x1_S64x2048x1024_0_1_2 : S64x2048x1.BroadcastsInDim S64x2048x1024 (![0, 1, 2] : Fin 3 → Fin S64x2048x1024.rank)
  bcast_S64x2048_S64x2048x1_0_1 : S64x2048.BroadcastsInDim S64x2048x1 (![0, 1] : Fin 2 → Fin S64x2048x1.rank)
  reducesTo_S64x2048x1024_S64x1024_d1 : S64x2048x1024.ReducesTo [1] S64x1024
  bcast_S64x1_S64x1024_0_1 : S64x1.BroadcastsInDim S64x1024 (![0, 1] : Fin 2 → Fin S64x1024.rank)
  transposes_S300x1024_S1024x300_1_0 : S300x1024.Transposes [1, 0] S1024x300
  bcast_S300_S1x300_1 : S300.BroadcastsInDim S1x300 (![1] : Fin 1 → Fin S1x300.rank)
  bcast_S1x300_S64x300_0_1 : S1x300.BroadcastsInDim S64x300 (![0, 1] : Fin 2 → Fin S64x300.rank)
  transposes_S2x300_S300x2_1_0 : S2x300.Transposes [1, 0] S300x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S64x1024_S1024x300_S64x300_1_0_0_1_n_n_wf : DotDims.WF S64x1024 S1024x300 S64x300 [1] [0] [0] [1] [] []
  dot_S64x300_S300x2_S64x2_1_0_0_1_n_n_wf : DotDims.WF S64x300 S300x2 S64x2 [1] [0] [0] [1] [] []

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S64x1024_S1024x300_S64x300_1_0_0_1_n_n : DotDims S64x1024 S1024x300 S64x300 where
  lhsContracting := [1]
  rhsContracting := [0]
  lhsNonContracting := [0]
  rhsNonContracting := [1]
  lhsBatch := []
  rhsBatch := []
  wf := dot_S64x1024_S1024x300_S64x300_1_0_0_1_n_n_wf
def dot_S64x300_S300x2_S64x2_1_0_0_1_n_n : DotDims S64x300 S300x2 S64x2 where
  lhsContracting := [1]
  rhsContracting := [0]
  lhsNonContracting := [0]
  rhsNonContracting := [1]
  lhsBatch := []
  rhsBatch := []
  wf := dot_S64x300_S300x2_S64x2_1_0_0_1_n_n_wf

class Facts : Prop extends Facts₀ where

variable [Facts]
-- ==== Proof.Spec.lean ====
import Idealize.ShloMosaic.PureOps.Ideal.Laws
import Idealize.ShloMosaic.Lib.ValueIdx

/-!
  The function both programs compute, over the extended reals.

  For each of 64 rows the first position `E i` holding the marker 1 (else 64) is the segment length.  The
  2048 x 1024 block of row `i` is weighted by a keep-mask `d i j` and by the indicator `j < E i`, summed over the
  positions `j`, divided by the segment length, and sent through a two-layer perceptron with a hyperbolic tangent:
  `out i o = (sum over h of tanh ((sum over k of u i k * W1 h k) + b1 h) * W2 o h) + b2 o`.

  The reference divides the sum by `E i`.  The kernel divides by `max (max (E i) 1) 1`, groups the keep-mask with
  the indicator before multiplying, and adds the 2048 positions in eight tiles of eight chunks of 32.
-/

noncomputable section

namespace Cert.SegMLP

open Idealize.ShloMosaic

/-- jnp.argmax's reducer on (value, index) pairs: the greater value, and on equal values the smaller index. -/
def firstMax : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

abbrev S_ : Shape := ⟨0, ![]⟩
abbrev S64 : Shape := ⟨1, ![64]⟩
abbrev S64x2048 : Shape := ⟨2, ![64, 2048]⟩

/-- The marker test `ids = 1`, entry by entry. -/
def isEnd (ids : IVec S64x2048 32) : IVec S64x2048 1 :=
  cmpi .eq ids (broadcastInDim S64x2048 ![] (by decide) (constantI S_ 32 1#32))

/-- The segment lengths of the 64 rows, as both programs compute them from the token ids: where a row holds the
    marker 1 somewhere, the first such position (an arg-max of the marker test along the row), else 64. -/
def endInd (ids : IVec S64x2048 32) : IVec S64 32 :=
  select (Host.reduce (axes := [1]) IntOp.ori (isEnd ids) (constantI S_ 1 0#1) (by decide) (by decide))
    (fun j => (Host.reduce2 (axes := [1]) firstMax (isEnd ids) (iotaInDim S64x2048 32 1) (constantI S_ 1 0#1)
      (constantI S_ 32 0#32) (by decide) (by decide) j).2)
    (broadcastInDim S64 ![] (by decide) (constantI S_ 32 64#32))

/-- The indicator of `j < E` (a signed comparison of 32-bit words) as an extended real, 0 or 1. -/
def valid (E : BitVec 32) (j : Fin 2048) : EReal :=
  (((IntOp.cmpi .slt (BitVec.ofNat 32 j.val) E).toNat : ℝ) : EReal)

/-- The segment length as an extended real. -/
def len (E : BitVec 32) : EReal := ((E.toInt : ℝ) : EReal)

/-- The reference's segment average: the weighted sum over the positions divided by the length. -/
def euphR (x : Fin 64 → Fin 2048 → Fin 1024 → EReal) (d : Fin 64 → Fin 2048 → EReal) (E : Fin 64 → BitVec 32)
    (i : Fin 64) (k : Fin 1024) : EReal :=
  Ideal.div (∑ j : Fin 2048, x i j k * d i j * valid (E i) j) (len (E i))

/-- Position `256 s + 32 c + r` of a row. -/
def pos (s c : Fin 8) (r : Fin 32) : Fin 2048 := ⟨256 * s.val + 32 * c.val + r.val, by omega⟩

/-- One chunk of 32 positions, summed. -/
def chunk (f : Fin 2048 → EReal) (s c : Fin 8) : EReal := ∑ r : Fin 32, f (pos s c r)

/-- One tile of 256 positions: its eight chunk sums added from zero, left to right. -/
def tile (f : Fin 2048 → EReal) (s : Fin 8) : EReal :=
  (((((((0 + chunk f s 0) + chunk f s 1) + chunk f s 2) + chunk f s 3) + chunk f s 4) + chunk f s 5) + chunk f s 6) + chunk f s 7

/-- The accumulator after the first `n` tiles: zero, then one tile sum added per tile. -/
def accum (f : Fin 2048 → EReal) : Nat → EReal
  | 0 => 0
  | n + 1 => accum f n + (if h : n < 8 then tile f ⟨n, h⟩ else 0)

/-- The kernel's segment average: mask and indicator grouped, the positions added tile by tile, the divisor guarded twice. -/
def euphK (x : Fin 64 → Fin 2048 → Fin 1024 → EReal) (d : Fin 64 → Fin 2048 → EReal) (E : Fin 64 → BitVec 32)
    (i : Fin 64) (k : Fin 1024) : EReal :=
  Ideal.div (accum (fun j => x i j k * (d i j * valid (E i) j)) 8) (max (max (len (E i)) 1) 1)

/-- The perceptron on a 64 x 1024 array `u`: a hidden layer of 300 units with tanh, then two outputs. -/
def mlp (u : Fin 64 → Fin 1024 → EReal) (W1 : Fin 300 → Fin 1024 → EReal) (b1 : Fin 300 → EReal)
    (W2 : Fin 2 → Fin 300 → EReal) (b2 : Fin 2 → EReal) (i : Fin 64) (o : Fin 2) : EReal :=
  (∑ h : Fin 300, Ideal.tanh ((∑ k : Fin 1024, u i k * W1 h k) + b1 h) * W2 o h) + b2 o

open Idealize.ShloMosaic.ValueIdx in
/-- The reference's result array as a function of the seven argument arrays. -/
def refOut (A0 : (⟨3, ![64, 2048, 1024]⟩ : Shape).Idx → EReal) (A1 : IVec S64x2048 32)
    (A2 : (⟨3, ![64, 2048, 1]⟩ : Shape).Idx → EReal) (A3 : (⟨2, ![300, 1024]⟩ : Shape).Idx → EReal)
    (A4 : (⟨1, ![300]⟩ : Shape).Idx → EReal) (A5 : (⟨2, ![2, 300]⟩ : Shape).Idx → EReal)
    (A6 : (⟨1, ![2]⟩ : Shape).Idx → EReal) : (⟨2, ![64, 2]⟩ : Shape).Idx → EReal :=
  fun idx => mlp (euphR (fun i j k => A0 (ix3 i j k)) (fun i j => A2 (ix3 i j (0 : Fin 1))) (fun i => endInd A1 (ix1 i)))
    (fun h k => A3 (ix2 h k)) (fun h => A4 (ix1 h)) (fun o h => A5 (ix2 o h)) (fun o => A6 (ix1 o)) (idx 0) (idx 1)

open Idealize.ShloMosaic.ValueIdx in
/-- The kernel's result array as a function of the seven argument arrays. -/
def kerOut (A0 : (⟨3, ![64, 2048, 1024]⟩ : Shape).Idx → EReal) (A1 : IVec S64x2048 32)
    (A2 : (⟨3, ![64, 2048, 1]⟩ : Shape).Idx → EReal) (A3 : (⟨2, ![300, 1024]⟩ : Shape).Idx → EReal)
    (A4 : (⟨1, ![300]⟩ : Shape).Idx → EReal) (A5 : (⟨2, ![2, 300]⟩ : Shape).Idx → EReal)
    (A6 : (⟨1, ![2]⟩ : Shape).Idx → EReal) : (⟨2, ![64, 2]⟩ : Shape).Idx → EReal :=
  fun idx => mlp (euphK (fun i j k => A0 (ix3 i j k)) (fun i j => A2 (ix3 i j (0 : Fin 1))) (fun i => endInd A1 (ix1 i)))
    (fun h k => A3 (ix2 h k)) (fun h => A4 (ix1 h)) (fun o h => A5 (ix2 o h)) (fun o => A6 (ix1 o)) (idx 0) (idx 1)

end Cert.SegMLP

end
-- ==== Proof.Bridge.lean ====
import proofs.«100456_j75849122448044_2_alg».proof.Proof.Spec
import Idealize.ShloMosaic.Lib.Affine

/-!
  The kernel's segment average equals the reference's, over the extended reals, wherever the segment
  length is not zero.

  Three facts.  (1) Adding 2048 terms in eight tiles of eight chunks of 32 is adding them all: the
  extended reals are a commutative additive monoid, so this is a regrouping of a finite sum.  (2) The
  product `x * (d * v)` is `x * d * v`.  (3) The divisor `max (max n 1) 1` is `n` for a length `n ≥ 1`;
  for a negative length every indicator `j < n` is 0, so both numerators are 0 and both quotients are 0;
  the length 0 is excluded by hypothesis.
-/

noncomputable section

namespace Cert.SegMLP

open Idealize.ShloMosaic

/-! ### Regrouping a sum over `range (a * b)` -/

/-- A sum over `a * b` consecutive naturals is `a` consecutive sums of `b` terms. -/
theorem sum_range_mul_block {M : Type*} [AddCommMonoid M] (g : ℕ → M) (a b : ℕ) :
    ∑ n ∈ Finset.range (a * b), g n = ∑ s ∈ Finset.range a, ∑ t ∈ Finset.range b, g (b * s + t) := by
  induction a with
  | zero => simp
  | succ a ih =>
    rw [Nat.add_mul, Nat.one_mul, Finset.sum_range_add, ih, Finset.sum_range_succ]
    congr 1
    exact Finset.sum_congr rfl (fun t _ => by rw [Nat.mul_comm a b])

/-- 2048 consecutive terms as eight blocks of eight blocks of 32. -/
theorem sum_range_2048 {M : Type*} [AddCommMonoid M] (g : ℕ → M) :
    ∑ n ∈ Finset.range 2048, g n
      = ∑ s ∈ Finset.range 8, ∑ c ∈ Finset.range 8, ∑ r ∈ Finset.range 32, g (256 * s + 32 * c + r) := by
  have h1 : ∑ n ∈ Finset.range 2048, g n = ∑ s ∈ Finset.range 8, ∑ t ∈ Finset.range 256, g (256 * s + t) :=
    sum_range_mul_block g 8 256
  rw [h1]
  refine Finset.sum_congr rfl (fun s _ => ?_)
  have h2 : ∑ t ∈ Finset.range 256, g (256 * s + t)
      = ∑ c ∈ Finset.range 8, ∑ r ∈ Finset.range 32, g (256 * s + (32 * c + r)) :=
    sum_range_mul_block (fun t => g (256 * s + t)) 8 32
  rw [h2]
  refine Finset.sum_congr rfl (fun c _ => Finset.sum_congr rfl (fun r _ => ?_))
  rw [Nat.add_assoc]

/-! ### The tiled accumulation is the plain sum -/

/-- A function on the 2048 positions continued by 0 to all naturals. -/
def ext0 (f : Fin 2048 → EReal) (n : ℕ) : EReal := if h : n < 2048 then f ⟨n, h⟩ else 0

theorem ext0_val (f : Fin 2048 → EReal) (j : Fin 2048) : ext0 f j.val = f j := by
  unfold ext0; rw [dif_pos j.isLt]

theorem ext0_pos (f : Fin 2048 → EReal) (s c : Fin 8) (r : Fin 32) :
    ext0 f (256 * s.val + 32 * c.val + r.val) = f (pos s c r) := by
  unfold ext0 pos; rw [dif_pos (by omega)]

theorem chunk_eq_range (f : Fin 2048 → EReal) (s c : Fin 8) :
    chunk f s c = ∑ r ∈ Finset.range 32, ext0 f (256 * s.val + 32 * c.val + r) := by
  rw [← Fin.sum_univ_eq_sum_range (fun r => ext0 f (256 * s.val + 32 * c.val + r)) 32]
  unfold chunk
  exact Finset.sum_congr rfl (fun r _ => (ext0_pos f s c r).symm)

theorem tile_eq_range (f : Fin 2048 → EReal) (s : Fin 8) :
    tile f s = ∑ c ∈ Finset.range 8, ∑ r ∈ Finset.range 32, ext0 f (256 * s.val + 32 * c + r) := by
  rw [← Fin.sum_univ_eq_sum_range (fun c => ∑ r ∈ Finset.range 32, ext0 f (256 * s.val + 32 * c + r)) 8]
  unfold tile
  rw [Fin.sum_univ_eight, zero_add]
  simp only [chunk_eq_range]

theorem accum_eight (f : Fin 2048 → EReal) :
    accum f 8 = tile f 0 + tile f 1 + tile f 2 + tile f 3 + tile f 4 + tile f 5 + tile f 6 + tile f 7 := by
  have h : accum f 8 = 0 + tile f 0 + tile f 1 + tile f 2 + tile f 3 + tile f 4 + tile f 5 + tile f 6 + tile f 7 := rfl
  rw [h, zero_add]

/-- Eight tiles of eight chunks of 32 positions add up to the sum over all 2048 positions. -/
theorem accum_eq_sum (f : Fin 2048 → EReal) : accum f 8 = ∑ j : Fin 2048, f j := by
  have hsum : ∑ j : Fin 2048, f j = ∑ n ∈ Finset.range 2048, ext0 f n := by
    rw [← Fin.sum_univ_eq_sum_range (ext0 f) 2048]
    exact Finset.sum_congr rfl (fun j _ => (ext0_val f j).symm)
  rw [hsum, sum_range_2048,
    ← Fin.sum_univ_eq_sum_range (fun s => ∑ c ∈ Finset.range 8, ∑ r ∈ Finset.range 32, ext0 f (256 * s + 32 * c + r)) 8,
    Fin.sum_univ_eight, accum_eight]
  simp only [tile_eq_range]

/-! ### The indicator and the length -/

/-- A position below 2048 is a non-negative signed 32-bit word: read signed, it is the position. -/
theorem toInt_ofNat_pos (j : Fin 2048) : (BitVec.ofNat 32 j.val).toInt = (j.val : Int) := by
  have hj := j.isLt
  have hN : (BitVec.ofNat 32 j.val).toNat = j.val := by rw [BitVec.toNat_ofNat]; omega
  rw [BitVec.toInt_eq_toNat_of_lt (by omega), hN]

/-- Against a negative length no position is below it: every indicator is 0. -/
theorem valid_of_neg (E : BitVec 32) (hE : E.toInt ≤ -1) (j : Fin 2048) : valid E j = 0 := by
  have h : IntOp.cmpi .slt (BitVec.ofNat 32 j.val) E = 0#1 := by
    rcases BitVec.eq_zero_or_eq_one (IntOp.cmpi .slt (BitVec.ofNat 32 j.val) E) with h | h
    · exact h
    · rw [IntOp.cmpi_slt, toInt_ofNat_pos] at h; omega
  unfold valid
  rw [h]
  simp

/-- Zero divided by a nonzero extended real is zero. -/
theorem div_zero_left {y : EReal} (hy : y ≠ 0) : Ideal.div 0 y = 0 := by
  unfold Ideal.div
  rw [if_neg hy, zero_mul]

/-! ### The two segment averages agree -/

/-- For a nonzero segment length the kernel's average is the reference's. -/
theorem euphK_eq_euphR (x : Fin 64 → Fin 2048 → Fin 1024 → EReal) (d : Fin 64 → Fin 2048 → EReal)
    (E : Fin 64 → BitVec 32) (i : Fin 64) (k : Fin 1024) (hE : E i ≠ 0#32) :
    euphK x d E i k = euphR x d E i k := by
  unfold euphK euphR
  rw [accum_eq_sum]
  have hs : ∑ j : Fin 2048, x i j k * (d i j * valid (E i) j) = ∑ j : Fin 2048, x i j k * d i j * valid (E i) j :=
    Finset.sum_congr rfl (fun j _ => (mul_assoc _ _ _).symm)
  rw [hs]
  by_cases h1 : 1 ≤ (E i).toInt
  · -- a length of at least 1 passes both guards unchanged
    have hl : (1 : EReal) ≤ len (E i) := by unfold len; exact_mod_cast h1
    rw [max_eq_left hl, max_eq_left hl]
  · -- the length is not 0, so it is negative: both numerators vanish
    have h0 : (E i).toInt ≠ 0 := fun h => hE (BitVec.toInt_inj.1 (by rw [h]; rfl))
    have hneg : (E i).toInt ≤ -1 := by omega
    have hz : ∑ j : Fin 2048, x i j k * d i j * valid (E i) j = 0 :=
      Finset.sum_eq_zero (fun j _ => by rw [valid_of_neg _ hneg, mul_zero])
    have hl : len (E i) ≤ 1 := by
      have : (E i).toInt ≤ 1 := by omega
      unfold len; exact_mod_cast this
    have hlne : len (E i) ≠ 0 := by unfold len; exact_mod_cast h0
    rw [hz, max_eq_right hl, max_self, div_zero_left one_ne_zero, div_zero_left hlne]

/-! ### The two result arrays agree -/

open Idealize.ShloMosaic.ValueIdx in
/-- Where no segment length is 0, the kernel's result array is the reference's. -/
theorem kerOut_eq_refOut (A0 : (⟨3, ![64, 2048, 1024]⟩ : Shape).Idx → EReal) (A1 : IVec S64x2048 32)
    (A2 : (⟨3, ![64, 2048, 1]⟩ : Shape).Idx → EReal) (A3 : (⟨2, ![300, 1024]⟩ : Shape).Idx → EReal)
    (A4 : (⟨1, ![300]⟩ : Shape).Idx → EReal) (A5 : (⟨2, ![2, 300]⟩ : Shape).Idx → EReal)
    (A6 : (⟨1, ![2]⟩ : Shape).Idx → EReal)
    (hE : ∀ i : Fin 64, endInd A1 (ix1 i) ≠ 0#32) :
    kerOut A0 A1 A2 A3 A4 A5 A6 = refOut A0 A1 A2 A3 A4 A5 A6 := by
  funext idx
  unfold kerOut refOut
  have h : euphK (fun i j k => A0 (ix3 i j k)) (fun i j => A2 (ix3 i j (0 : Fin 1))) (fun i => endInd A1 (ix1 i))
      = euphR (fun i j k => A0 (ix3 i j k)) (fun i j => A2 (ix3 i j (0 : Fin 1))) (fun i => endInd A1 (ix1 i)) :=
    funext fun i => funext fun k => euphK_eq_euphR _ _ _ i k (hE i)
  rw [h]

end Cert.SegMLP

end
-- ==== Proof.PreDomain.lean ====
import proofs.«100456_j75849122448044_2_alg».proof.Proof.Spec
import proofs.«100456_j75849122448044_2_alg».proof.Pre_finite_inputs
import proofs.«100456_j75849122448044_2_alg».proof.Proof.Gen.Pre_finite_inputs
import Idealize.ShloMosaic.Lib.ReduceAll

/-!
  The precondition yields the domain fact: no segment length is 0.

  The precondition is a conjunction of one-bit words; its last conjunct is the conjunction over the 64 rows of
  the bit "the row's segment length is not 0".  A conjunction that is 1 has every conjunct 1, so each row's bit
  is 1, and a "not equal" bit that is 1 says its two words differ.
-/

noncomputable section

namespace Cert.SegMLP

open Idealize.ShloMosaic

/-- The scalar shape has one index. -/
instance subsingleton_scalarIdx : Subsingleton (Cert.Pre_finite_inputs.S_).Idx :=
  ⟨fun _ _ => funext fun d => d.elim0⟩

/-- The arg-max reducer of the precondition is the specification's. -/
theorem reducer_eq_firstMax : Cert.Pre_finite_inputs.reducer_argmax_i1_i32 = firstMax := rfl

/-- The segment lengths the precondition tests are the specification's. -/
theorem pre_lengths_eq (A1 : IVec Cert.Pre_finite_inputs.S64x2048 32) :
    (select
      (Host.reduce IntOp.ori
        (cmpi .eq A1 (broadcastInDim Cert.Pre_finite_inputs.S64x2048 ![] Cert.Pre_finite_inputs.Facts.bcast_S_S64x2048
          (constantI Cert.Pre_finite_inputs.S_ 32 1#32)))
        (constantI Cert.Pre_finite_inputs.S_ 1 0#1)
        Cert.Pre_finite_inputs.Facts.reducesTo_S64x2048_S64_d1 Cert.Pre_finite_inputs.Facts.h_S_)
      (fun j => (Host.reduce2 Cert.Pre_finite_inputs.reducer_argmax_i1_i32
        (cmpi .eq A1 (broadcastInDim Cert.Pre_finite_inputs.S64x2048 ![] Cert.Pre_finite_inputs.Facts.bcast_S_S64x2048
          (constantI Cert.Pre_finite_inputs.S_ 32 1#32)))
        (iotaInDim Cert.Pre_finite_inputs.S64x2048 32 1)
        (constantI Cert.Pre_finite_inputs.S_ 1 0#1) (constantI Cert.Pre_finite_inputs.S_ 32 0#32)
        Cert.Pre_finite_inputs.Facts.reducesTo_S64x2048_S64_d1 Cert.Pre_finite_inputs.Facts.h_S_ j).2)
      (broadcastInDim Cert.Pre_finite_inputs.S64 ![] Cert.Pre_finite_inputs.Facts.bcast_S_S64
        (constantI Cert.Pre_finite_inputs.S_ 32 64#32)) : IVec Cert.Pre_finite_inputs.S64 32)
      = endInd A1 := by
  rw [reducer_eq_firstMax]
  rfl

open Idealize.ShloMosaic.ValueIdx in
/-- Under the precondition no row's segment length is 0. -/
theorem endInd_ne_zero_of_pre (A0 : FVec Ideal Cert.Pre_finite_inputs.S64x2048x1024 .f32)
    (A1 : IVec Cert.Pre_finite_inputs.S64x2048 32) (A2 : FVec Ideal Cert.Pre_finite_inputs.S64x2048x1 .f32)
    (A3 : FVec Ideal Cert.Pre_finite_inputs.S300x1024 .f32) (A4 : FVec Ideal Cert.Pre_finite_inputs.S300 .f32)
    (A5 : FVec Ideal Cert.Pre_finite_inputs.S2x300 .f32) (A6 : FVec Ideal Cert.Pre_finite_inputs.S2 .f32)
    (h : Cert.Pre_finite_inputs.fn (F := Ideal) A0 A1 A2 A3 A4 A5 A6 = fun _ => 1#1) :
    ∀ i : Fin 64, Cert.SegMLP.endInd A1 (ix1 i) ≠ 0#32 := by
  intro i
  -- the precondition at the scalar shape's one index: a chain of conjunctions that is 1
  have h0 := congrFun h ix0
  dsimp only [Cert.Pre_finite_inputs.fn, Cert.Pre_finite_inputs.fn_part1, Cert.Pre_finite_inputs.fn_part2] at h0
  -- its last conjunct: the conjunction over the rows
  have h1 := (IntOp.andi_eq_one.1 h0).2
  -- every row's bit is 1
  have h2 := Host.reduce_andi_all _ _ _ _ _ h1 (ix1 i)
  -- the tested lengths are the specification's
  rw [pre_lengths_eq] at h2
  -- a "not equal" bit that is 1: the words differ
  exact IntOp.cmpi_ne.1 h2

end Cert.SegMLP

end
-- ==== Proof.RefRun.lean ====
import proofs.«100456_j75849122448044_2_alg».proof.Proof.Gen.ReferenceIdeal
import Idealize.ShloMosaic.Lib.StableHlo.Run

/-!
  The reference program's run, read as one composed term.

  The program is a straight line of 43 tensor operations (the two functions it calls, an arg-max along the
  rows and a three-way select, written out at their call sites over the buffers of each call).  Every weakly
  fair execution terminates; the result buffer then holds the composition of the operations' functions applied
  to the seven argument arrays, and the argument arrays are as they were.

  The composition is named in layers: the marker test, the segment lengths, the indicator of the positions
  before the segment's end, the weighted block, the segment average, the hidden layer, the output layer.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term, in layers -/

/-- The marker test `ids = 1`, entry by entry. -/
def isEnd (A1 : (⟨S64x2048, .i32⟩ : BufTy).Contents (Elt F)) : (⟨S64x2048, .i1⟩ : BufTy).Contents (Elt F) :=
  cmpi .eq A1 (broadcastInDim S64x2048 ![] bcast_S_S64x2048 (constantI S_ 32 1#32))

/-- The segment lengths: where a row holds the marker, the position the arg-max reducer finds, else 64. -/
def segEnd (A1 : (⟨S64x2048, .i32⟩ : BufTy).Contents (Elt F)) : (⟨S64, .i32⟩ : BufTy).Contents (Elt F) :=
  select (Host.reduce IntOp.ori (isEnd (F := F) A1) (constantI S_ 1 0#1) reducesTo_S64x2048_S64_d1 h_S_)
    (fun j => (Host.reduce2 reducer_argmax_i1_i32 (isEnd (F := F) A1) (iotaInDim S64x2048 32 1) (constantI S_ 1 0#1)
      (constantI S_ 32 0#32) reducesTo_S64x2048_S64_d1 h_S_ j).2)
    (broadcastInDim S64 ![] bcast_S_S64 (constantI S_ 32 64#32))

/-- The indicator `j < E i` of the positions before the segment's end, as a 64 x 2048 array of bits. -/
def before (E : (⟨S64, .i32⟩ : BufTy).Contents (Elt F)) : (⟨S64x2048, .i1⟩ : BufTy).Contents (Elt F) :=
  cmpi .slt
    (broadcastInDim S64x2048 ![0, 1] bcast_S1x2048_S64x2048_0_1
      (broadcastInDim S1x2048 ![1] bcast_S2048_S1x2048_1 (iotaInDim S2048 32 0)))
    (broadcastInDim S64x2048 ![0, 1] bcast_S64x1_S64x2048_0_1 (broadcastInDim S64x1 ![0] bcast_S64_S64x1_0 E))

/-- The block weighted by the keep-mask and by the indicator. -/
def weighted (A0 : (⟨S64x2048x1024, .f32⟩ : BufTy).Contents (Elt F)) (A2 : (⟨S64x2048x1, .f32⟩ : BufTy).Contents (Elt F))
    (E : (⟨S64, .i32⟩ : BufTy).Contents (Elt F)) : (⟨S64x2048x1024, .f32⟩ : BufTy).Contents (Elt F) :=
  mulf (mulf A0 (broadcastInDim S64x2048x1024 ![0, 1, 2] bcast_S64x2048x1_S64x2048x1024_0_1_2 A2))
    (broadcastInDim S64x2048x1024 ![0, 1, 2] bcast_S64x2048x1_S64x2048x1024_0_1_2
      (uitofp .f32 (broadcastInDim S64x2048x1 ![0, 1] bcast_S64x2048_S64x2048x1_0_1 (before (F := F) E))))

/-- The segment average: the weighted block summed over the positions, divided by the segment length. -/
def average (A0 : (⟨S64x2048x1024, .f32⟩ : BufTy).Contents (Elt F)) (A2 : (⟨S64x2048x1, .f32⟩ : BufTy).Contents (Elt F))
    (E : (⟨S64, .i32⟩ : BufTy).Contents (Elt F)) : (⟨S64x1024, .f32⟩ : BufTy).Contents (Elt F) :=
  Host.divf
    (Host.reduceAdd (weighted A0 A2 E) (constant S_ .f32 0x00000000#32) reducesTo_S64x2048x1024_S64x1024_d1 h_S_)
    (broadcastInDim S64x1024 ![0, 1] bcast_S64x1_S64x1024_0_1 (sitofp .f32 (broadcastInDim S64x1 ![0] bcast_S64_S64x1_0 E)))

/-- The hidden layer: `tanh (u W1ᵀ + b1)`. -/
def hidden (u : (⟨S64x1024, .f32⟩ : BufTy).Contents (Elt F)) (A3 : (⟨S300x1024, .f32⟩ : BufTy).Contents (Elt F))
    (A4 : (⟨S300, .f32⟩ : BufTy).Contents (Elt F)) : (⟨S64x300, .f32⟩ : BufTy).Contents (Elt F) :=
  Host.tanh (addf
    (Host.dotGeneral dot_S64x1024_S1024x300_S64x300_1_0_0_1_n_n none u
      (transpose S1024x300 [1, 0] A3 transposes_S300x1024_S1024x300_1_0))
    (broadcastInDim S64x300 ![0, 1] bcast_S1x300_S64x300_0_1 (broadcastInDim S1x300 ![1] bcast_S300_S1x300_1 A4)))

/-- The output layer: `h W2ᵀ + b2`. -/
def output (h : (⟨S64x300, .f32⟩ : BufTy).Contents (Elt F)) (A5 : (⟨S2x300, .f32⟩ : BufTy).Contents (Elt F))
    (A6 : (⟨S2, .f32⟩ : BufTy).Contents (Elt F)) : (⟨S64x2, .f32⟩ : BufTy).Contents (Elt F) :=
  addf
    (Host.dotGeneral dot_S64x300_S300x2_S64x2_1_0_0_1_n_n none h
      (transpose S300x2 [1, 0] A5 transposes_S2x300_S300x2_1_0))
    (broadcastInDim S64x2 ![0, 1] bcast_S1x2_S64x2_0_1 (broadcastInDim S1x2 ![1] bcast_S2_S1x2_1 A6))

/-- The result as a function of the seven argument arrays. -/
def result (A0 : (⟨S64x2048x1024, .f32⟩ : BufTy).Contents (Elt F)) (A1 : (⟨S64x2048, .i32⟩ : BufTy).Contents (Elt F))
    (A2 : (⟨S64x2048x1, .f32⟩ : BufTy).Contents (Elt F)) (A3 : (⟨S300x1024, .f32⟩ : BufTy).Contents (Elt F))
    (A4 : (⟨S300, .f32⟩ : BufTy).Contents (Elt F)) (A5 : (⟨S2x300, .f32⟩ : BufTy).Contents (Elt F))
    (A6 : (⟨S2, .f32⟩ : BufTy).Contents (Elt F)) : (⟨S64x2, .f32⟩ : BufTy).Contents (Elt F) :=
  output (hidden (average A0 A2 (segEnd (F := F) A1)) A3 A4) A5 A6

/-! ## The program as a list of operations -/

/-- The 43 operations, in order: five of the program's own, the arg-max function's five over the buffers of its
    call, a constant, the select function's three over the buffers of its call, then the program's last twenty-nine. -/
abbrev ops : List (HloOp τ sig (Elt F)) :=
  [ nullary main_c (constantI S_ 32 1#32),
    unary main_c main_v0 (broadcastInDim S64x2048 ![] bcast_S_S64x2048 : (⟨S_, .i32⟩ : BufTy).Contents (Elt F) → (⟨S64x2048, .i32⟩ : BufTy).Contents (Elt F)),
    binary main_arg1 main_v0 main_v1 (cmpi .eq : (⟨S64x2048, .i32⟩ : BufTy).Contents (Elt F) → (⟨S64x2048, .i32⟩ : BufTy).Contents (Elt F) → (⟨S64x2048, .i1⟩ : BufTy).Contents (Elt F)),
    nullary main_c_0 (constantI S_ 1 0#1),
    binary main_v1 main_c_0 main_v2 ((fun x v => Host.reduce IntOp.ori x v reducesTo_S64x2048_S64_d1 h_S_) : (⟨S64x2048, .i1⟩ : BufTy).Contents (Elt F) → (⟨S_, .i1⟩ : BufTy).Contents (Elt F) → (⟨S64, .i1⟩ : BufTy).Contents (Elt F)),
    TRef.nullary main_call0.v0 (iotaInDim S64x2048 32 1),
    TRef.nullary main_call0.c (constantI S_ 1 0#1),
    TRef.nullary main_call0.c_0 (constantI S_ 32 0#32),
    TRef.quaternary (.of main_v1) main_call0.v0 main_call0.c main_call0.c_0 main_call0.v1_0 (fun x y u v j => (Host.reduce2 reducer_argmax_i1_i32 x y u v reducesTo_S64x2048_S64_d1 h_S_ j).1),
    TRef.quaternary (.of main_v1) main_call0.v0 main_call0.c main_call0.c_0 main_call0.v1_1 (fun x y u v j => (Host.reduce2 reducer_argmax_i1_i32 x y u v reducesTo_S64x2048_S64_d1 h_S_ j).2),
    nullary main_c_1 (constantI S_ 32 64#32),
    TRef.unary (.of main_c_1) main_call1.v0 id,
    TRef.unary main_call1.v0 main_call1.v1 (broadcastInDim S64 ![] bcast_S_S64),
    TRef.ternary (.of main_v2) (.of main_v3) main_call1.v1 main_call1.v2 select,
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S64x1 ![0] bcast_S64_S64x1_0 : (⟨S64, .i32⟩ : BufTy).Contents (Elt F) → (⟨S64x1, .i32⟩ : BufTy).Contents (Elt F)),
    unary main_v6 main_v8 (broadcastInDim S64x2048 ![0, 1] bcast_S1x2048_S64x2048_0_1 : (⟨S1x2048, .i32⟩ : BufTy).Contents (Elt F) → (⟨S64x2048, .i32⟩ : BufTy).Contents (Elt F)),
    unary main_v7 main_v9 (broadcastInDim S64x2048 ![0, 1] bcast_S64x1_S64x2048_0_1 : (⟨S64x1, .i32⟩ : BufTy).Contents (Elt F) → (⟨S64x2048, .i32⟩ : BufTy).Contents (Elt F)),
    binary main_v8 main_v9 main_v10 (cmpi .slt : (⟨S64x2048, .i32⟩ : BufTy).Contents (Elt F) → (⟨S64x2048, .i32⟩ : BufTy).Contents (Elt F) → (⟨S64x2048, .i1⟩ : BufTy).Contents (Elt F)),
    unary main_arg2 main_v11 (broadcastInDim S64x2048x1024 ![0, 1, 2] bcast_S64x2048x1_S64x2048x1024_0_1_2 : (⟨S64x2048x1, .f32⟩ : BufTy).Contents (Elt F) → (⟨S64x2048x1024, .f32⟩ : BufTy).Contents (Elt F)),
    binary main_arg0 main_v11 main_v12 (mulf : (⟨S64x2048x1024, .f32⟩ : BufTy).Contents (Elt F) → (⟨S64x2048x1024, .f32⟩ : BufTy).Contents (Elt F) → (⟨S64x2048x1024, .f32⟩ : BufTy).Contents (Elt F)),
    unary main_v10 main_v13 (broadcastInDim S64x2048x1 ![0, 1] bcast_S64x2048_S64x2048x1_0_1 : (⟨S64x2048, .i1⟩ : BufTy).Contents (Elt F) → (⟨S64x2048x1, .i1⟩ : BufTy).Contents (Elt F)),
    unary main_v13 main_v14 (uitofp .f32 : (⟨S64x2048x1, .i1⟩ : BufTy).Contents (Elt F) → (⟨S64x2048x1, .f32⟩ : BufTy).Contents (Elt F)),
    unary main_v14 main_v15 (broadcastInDim S64x2048x1024 ![0, 1, 2] bcast_S64x2048x1_S64x2048x1024_0_1_2 : (⟨S64x2048x1, .f32⟩ : BufTy).Contents (Elt F) → (⟨S64x2048x1024, .f32⟩ : BufTy).Contents (Elt F)),
    binary main_v12 main_v15 main_v16 (mulf : (⟨S64x2048x1024, .f32⟩ : BufTy).Contents (Elt F) → (⟨S64x2048x1024, .f32⟩ : BufTy).Contents (Elt F) → (⟨S64x2048x1024, .f32⟩ : BufTy).Contents (Elt F)),
    nullary main_cst (constant S_ .f32 0x00000000#32),
    binary main_v16 main_cst main_v17 ((fun x v => Host.reduceAdd x v reducesTo_S64x2048x1024_S64x1024_d1 h_S_) : (⟨S64x2048x1024, .f32⟩ : BufTy).Contents (Elt F) → (⟨S_, .f32⟩ : BufTy).Contents (Elt F) → (⟨S64x1024, .f32⟩ : BufTy).Contents (Elt F)),
    unary main_v4 main_v18 (broadcastInDim S64x1 ![0] bcast_S64_S64x1_0 : (⟨S64, .i32⟩ : BufTy).Contents (Elt F) → (⟨S64x1, .i32⟩ : BufTy).Contents (Elt F)),
    unary main_v18 main_v19 (sitofp .f32 : (⟨S64x1, .i32⟩ : BufTy).Contents (Elt F) → (⟨S64x1, .f32⟩ : BufTy).Contents (Elt F)),
    unary main_v19 main_v20 (broadcastInDim S64x1024 ![0, 1] bcast_S64x1_S64x1024_0_1 : (⟨S64x1, .f32⟩ : BufTy).Contents (Elt F) → (⟨S64x1024, .f32⟩ : BufTy).Contents (Elt F)),
    binary main_v17 main_v20 main_v21 (Host.divf : (⟨S64x1024, .f32⟩ : BufTy).Contents (Elt F) → (⟨S64x1024, .f32⟩ : BufTy).Contents (Elt F) → (⟨S64x1024, .f32⟩ : BufTy).Contents (Elt F)),
    unary main_arg3 main_v22 ((transpose S1024x300 [1, 0] · transposes_S300x1024_S1024x300_1_0) : (⟨S300x1024, .f32⟩ : BufTy).Contents (Elt F) → (⟨S1024x300, .f32⟩ : BufTy).Contents (Elt F)),
    binary main_v21 main_v22 main_v23 ((fun l r => Host.dotGeneral dot_S64x1024_S1024x300_S64x300_1_0_0_1_n_n none l r) : (⟨S64x1024, .f32⟩ : BufTy).Contents (Elt F) → (⟨S1024x300, .f32⟩ : BufTy).Contents (Elt F) → (⟨S64x300, .f32⟩ : BufTy).Contents (Elt F)),
    unary main_arg4 main_v24 (broadcastInDim S1x300 ![1] bcast_S300_S1x300_1 : (⟨S300, .f32⟩ : BufTy).Contents (Elt F) → (⟨S1x300, .f32⟩ : BufTy).Contents (Elt F)),
    unary main_v24 main_v25 (broadcastInDim S64x300 ![0, 1] bcast_S1x300_S64x300_0_1 : (⟨S1x300, .f32⟩ : BufTy).Contents (Elt F) → (⟨S64x300, .f32⟩ : BufTy).Contents (Elt F)),
    binary main_v23 main_v25 main_v26 (addf : (⟨S64x300, .f32⟩ : BufTy).Contents (Elt F) → (⟨S64x300, .f32⟩ : BufTy).Contents (Elt F) → (⟨S64x300, .f32⟩ : BufTy).Contents (Elt F)),
    unary main_v26 main_v27 (Host.tanh : (⟨S64x300, .f32⟩ : BufTy).Contents (Elt F) → (⟨S64x300, .f32⟩ : BufTy).Contents (Elt F)),
    unary main_arg5 main_v28 ((transpose S300x2 [1, 0] · transposes_S2x300_S300x2_1_0) : (⟨S2x300, .f32⟩ : BufTy).Contents (Elt F) → (⟨S300x2, .f32⟩ : BufTy).Contents (Elt F)),
    binary main_v27 main_v28 main_v29 ((fun l r => Host.dotGeneral dot_S64x300_S300x2_S64x2_1_0_0_1_n_n none l r) : (⟨S64x300, .f32⟩ : BufTy).Contents (Elt F) → (⟨S300x2, .f32⟩ : BufTy).Contents (Elt F) → (⟨S64x2, .f32⟩ : BufTy).Contents (Elt F)),
    unary main_arg6 main_v30 (broadcastInDim S1x2 ![1] bcast_S2_S1x2_1 : (⟨S2, .f32⟩ : BufTy).Contents (Elt F) → (⟨S1x2, .f32⟩ : BufTy).Contents (Elt F)),
    unary main_v30 main_v31 (broadcastInDim S64x2 ![0, 1] bcast_S1x2_S64x2_0_1 : (⟨S1x2, .f32⟩ : BufTy).Contents (Elt F) → (⟨S64x2, .f32⟩ : BufTy).Contents (Elt F)),
    binary main_v29 main_v31 main_v32 (addf : (⟨S64x2, .f32⟩ : BufTy).Contents (Elt F) → (⟨S64x2, .f32⟩ : BufTy).Contents (Elt F) → (⟨S64x2, .f32⟩ : BufTy).Contents (Elt F)) ]

set_option maxRecDepth 2048 in
/-- The program is that straight line: the two functions unfolded at their calls, sequencing reassociated. -/
theorem main_eq (c : Dev nD) : main (F := F) c = seq ops := by
  simp only [main, fn_argmax.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., binary_bufs_sub .., nullary_bufs_sub ..,
    nullary_bufs_sub .., nullary_bufs_sub .., quaternary_bufs_sub .., quaternary_bufs_sub .., nullary_bufs_sub .., unary_bufs_sub ..,
    unary_bufs_sub .., ternary_bufs_sub .., nullary_bufs_sub .., unary_bufs_sub .., unary_bufs_sub .., unary_bufs_sub ..,
    unary_bufs_sub .., binary_bufs_sub .., unary_bufs_sub .., binary_bufs_sub .., unary_bufs_sub .., unary_bufs_sub ..,
    unary_bufs_sub .., binary_bufs_sub .., nullary_bufs_sub .., binary_bufs_sub .., unary_bufs_sub .., unary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-! ## What the line leaves in the result buffer and in the argument buffers -/

attribute [local irreducible] Host.reduce Host.reduce2 in
/-- After the 43 operations the result buffer holds `result` of the argument buffers' contents: the fold is
    unrolled, each operation's result read at its own buffer and passed over at every other; the moves between a
    call's typed buffers and the buffers themselves are the identity. The reductions and contractions stay folded. -/
theorem out_eq (V : Valuation τ sig (Elt F)) :
    after ops V (main_v32 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of the
    program terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v32).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«100456_j75849122448044_2_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.RefRead.lean ====
import proofs.«100456_j75849122448044_2_alg».proof.Proof.RefRun
import proofs.«100456_j75849122448044_2_alg».proof.Proof.Spec
import proofs.«100456_j75849122448044_2_alg».proof.Proof.LibDotNN
import proofs.«100456_j75849122448044_2_alg».proof.Proof.LibRowBias
import Idealize.ShloMosaic.Lib.ValueLayout

/-!
  The reference's composed term is the specification.

  Over the extended reals each layer of the composed term is read at an index: a broadcast reads one entry of its
  operand, a transpose swaps the coordinates, a product of matrices is a sum over the contracted axis, the sum over the
  positions is the initial value 0 plus a sum over 2048 positions, the quotient is the extended reals' guarded one, and
  the conversions of a bit and of a signed word are that bit and that integer.  The segment lengths are the same term in
  the program and in the specification (the arg-max reducer and the specification's `firstMax` have one body), so that
  step is by definition; the folds over the 131072 token ids are never opened.
-/

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo
open scoped BigOperators

/-! ## The segment lengths -/

attribute [local irreducible] Host.reduce Host.reduce2 in
/-- The program's segment lengths are the specification's: the same operations, with the arg-max reducer under its two names. -/
theorem segEnd_eq (A1 : IVec S64x2048 32) : segEnd (F := Ideal) A1 = Cert.SegMLP.endInd A1 := rfl

/-! ## Broadcasts read at an entry -/

section Broadcasts
variable {α : Type}

/-- A length-2048 vector laid along axis 1 of a [1, 2048] array. -/
theorem row2048_apply (x : (⟨1, ![2048]⟩ : Shape).Idx → α) (j : Fin 2048) :
    broadcastInDim S1x2048 ![1] bcast_S2048_S1x2048_1 x (ix2 (0 : Fin 1) j) = x (ix1 j) :=
  broadcastInDim_apply _ _ _ _ (ix1 j) fun a => match a with | ⟨0, _⟩ => rfl

/-- A length-64 vector laid along axis 0 of a [64, 1] array. -/
theorem col64_apply (x : (⟨1, ![64]⟩ : Shape).Idx → α) (i : Fin 64) :
    broadcastInDim S64x1 ![0] bcast_S64_S64x1_0 x (ix2 i (0 : Fin 1)) = x (ix1 i) :=
  broadcastInDim_apply _ _ _ _ (ix1 i) fun a => match a with | ⟨0, _⟩ => rfl

/-- A [64, 1] column repeated along axis 1 to [64, 2048]. -/
theorem col_2048_apply (x : (⟨2, ![64, 1]⟩ : Shape).Idx → α) (i : Fin 64) (j : Fin 2048) :
    broadcastInDim S64x2048 ![0, 1] bcast_S64x1_S64x2048_0_1 x (ix2 i j) = x (ix2 i (0 : Fin 1)) :=
  broadcastInDim_apply _ _ _ _ (ix2 i (0 : Fin 1)) fun a => match a with | ⟨0, _⟩ => rfl | ⟨1, _⟩ => rfl

/-- A [64, 1] column repeated along axis 1 to [64, 1024]. -/
theorem col_1024_apply (x : (⟨2, ![64, 1]⟩ : Shape).Idx → α) (i : Fin 64) (k : Fin 1024) :
    broadcastInDim S64x1024 ![0, 1] bcast_S64x1_S64x1024_0_1 x (ix2 i k) = x (ix2 i (0 : Fin 1)) :=
  broadcastInDim_apply _ _ _ _ (ix2 i (0 : Fin 1)) fun a => match a with | ⟨0, _⟩ => rfl | ⟨1, _⟩ => rfl

/-- A [64, 2048, 1] array repeated along axis 2 to [64, 2048, 1024]. -/
theorem last_1024_apply (x : (⟨3, ![64, 2048, 1]⟩ : Shape).Idx → α) (i : Fin 64) (j : Fin 2048) (k : Fin 1024) :
    broadcastInDim S64x2048x1024 ![0, 1, 2] bcast_S64x2048x1_S64x2048x1024_0_1_2 x (ix3 i j k) = x (ix3 i j (0 : Fin 1)) :=
  broadcastInDim_apply _ _ _ _ (ix3 i j (0 : Fin 1)) fun a => match a with | ⟨0, _⟩ => rfl | ⟨1, _⟩ => rfl | ⟨2, _⟩ => rfl

/-- A [64, 2048] array given a trailing unit axis. -/
theorem unit_last_apply (x : (⟨2, ![64, 2048]⟩ : Shape).Idx → α) (i : Fin 64) (j : Fin 2048) :
    broadcastInDim S64x2048x1 ![0, 1] bcast_S64x2048_S64x2048x1_0_1 x (ix3 i j (0 : Fin 1)) = x (ix2 i j) :=
  broadcastInDim_apply _ _ _ _ (ix2 i j) fun a => match a with | ⟨0, _⟩ => rfl | ⟨1, _⟩ => rfl

/-- A length-300 vector laid along axis 1 of a [1, 300] array. -/
theorem row300_apply (x : (⟨1, ![300]⟩ : Shape).Idx → α) (h : Fin 300) :
    broadcastInDim S1x300 ![1] bcast_S300_S1x300_1 x (ix2 (0 : Fin 1) h) = x (ix1 h) :=
  broadcastInDim_apply _ _ _ _ (ix1 h) fun a => match a with | ⟨0, _⟩ => rfl

/-- A length-2 vector laid along axis 1 of a [1, 2] array. -/
theorem row2_apply (x : (⟨1, ![2]⟩ : Shape).Idx → α) (o : Fin 2) :
    broadcastInDim S1x2 ![1] bcast_S2_S1x2_1 x (ix2 (0 : Fin 1) o) = x (ix1 o) :=
  broadcastInDim_apply _ _ _ _ (ix1 o) fun a => match a with | ⟨0, _⟩ => rfl

end Broadcasts

/-! ## The layers read at an entry -/

/-- The indicator at (i, j): the signed comparison of the position with the segment length. -/
theorem before_apply (E : IVec S64 32) (i : Fin 64) (j : Fin 2048) :
    before (F := Ideal) E (ix2 i j) = IntOp.cmpi .slt (BitVec.ofNat 32 j.val) (E (ix1 i)) := by
  show IntOp.cmpi .slt
      (broadcastInDim S64x2048 ![0, 1] bcast_S1x2048_S64x2048_0_1
        (broadcastInDim S1x2048 ![1] bcast_S2048_S1x2048_1 (iotaInDim S2048 32 0)) (ix2 i j))
      (broadcastInDim S64x2048 ![0, 1] bcast_S64x1_S64x2048_0_1 (broadcastInDim S64x1 ![0] bcast_S64_S64x1_0 E) (ix2 i j)) = _
  rw [Cert.RowBias.rowInDim_apply, row2048_apply, col_2048_apply, col64_apply]
  rfl

/-- The weighted block at (i, j, k). -/
theorem weighted_apply (A0 : FVec Ideal S64x2048x1024 .f32) (A2 : FVec Ideal S64x2048x1 .f32) (E : IVec S64 32)
    (i : Fin 64) (j : Fin 2048) (k : Fin 1024) :
    weighted (F := Ideal) A0 A2 E (ix3 i j k)
      = A0 (ix3 i j k) * A2 (ix3 i j (0 : Fin 1)) * Cert.SegMLP.valid (E (ix1 i)) j := by
  show A0 (ix3 i j k) * broadcastInDim S64x2048x1024 ![0, 1, 2] bcast_S64x2048x1_S64x2048x1024_0_1_2 A2 (ix3 i j k)
      * broadcastInDim S64x2048x1024 ![0, 1, 2] bcast_S64x2048x1_S64x2048x1024_0_1_2
          (uitofp (F := Ideal) .f32 (broadcastInDim S64x2048x1 ![0, 1] bcast_S64x2048_S64x2048x1_0_1 (before (F := Ideal) E))) (ix3 i j k) = _
  rw [last_1024_apply, last_1024_apply]
  show _ * (((broadcastInDim S64x2048x1 ![0, 1] bcast_S64x2048_S64x2048x1_0_1 (before (F := Ideal) E) (ix3 i j (0 : Fin 1))).toNat : ℝ) : EReal) = _
  rw [unit_last_apply, before_apply]
  rfl

/-- The position inserted on axis 1 of a (row, feature) index. -/
theorem lift_eq (h : S64x2048x1024.Reduces [1] S64x1024) (i : Fin 64) (k : Fin 1024) (j : Fin 2048) :
    h.lift (ix2 i k) j = ix3 i j k :=
  funext fun a => match a with | ⟨0, _⟩ => Fin.ext rfl | ⟨1, _⟩ => Fin.ext rfl | ⟨2, _⟩ => Fin.ext rfl

/-- The segment average at (i, k): the weighted sum over the positions divided by the segment length. -/
theorem average_apply (A0 : FVec Ideal S64x2048x1024 .f32) (A2 : FVec Ideal S64x2048x1 .f32) (E : IVec S64 32)
    (i : Fin 64) (k : Fin 1024) :
    average (F := Ideal) A0 A2 E (ix2 i k)
      = Ideal.div (∑ j : Fin 2048, A0 (ix3 i j k) * A2 (ix3 i j (0 : Fin 1)) * Cert.SegMLP.valid (E (ix1 i)) j)
          (Cert.SegMLP.len (E (ix1 i))) := by
  have hR : S64x2048x1024.Reduces [1] S64x1024 := by decide
  show Ideal.div
      (Ideal.hostReduceAdd reducesTo_S64x2048x1024_S64x1024_d1 (weighted (F := Ideal) A0 A2 E) (Ideal.ofBits .f32 0x00000000#32) (ix2 i k))
      (broadcastInDim S64x1024 ![0, 1] bcast_S64x1_S64x1024_0_1
        (sitofp (F := Ideal) .f32 (broadcastInDim S64x1 ![0] bcast_S64_S64x1_0 E)) (ix2 i k)) = _
  rw [Ideal.hostReduceAdd_single _ hR, Ideal.ofBits_zero_f32, zero_add, col_1024_apply]
  show Ideal.div _ ((((broadcastInDim S64x1 ![0] bcast_S64_S64x1_0 E (ix2 i (0 : Fin 1))).toInt : ℝ) : EReal)) = _
  rw [col64_apply]
  refine congrArg (fun z => Ideal.div z (Cert.SegMLP.len (E (ix1 i)))) ?_
  show (∑ j : Fin 2048, weighted (F := Ideal) A0 A2 E (hR.lift (ix2 i k) j)) = _
  exact Finset.sum_congr rfl fun j _ => by rw [lift_eq, weighted_apply]

/-- The hidden layer at (i, h). -/
theorem hidden_apply (u : FVec Ideal S64x1024 .f32) (A3 : FVec Ideal S300x1024 .f32) (A4 : FVec Ideal S300 .f32)
    (i : Fin 64) (h : Fin 300) :
    hidden (F := Ideal) u A3 A4 (ix2 i h)
      = Ideal.tanh ((∑ k : Fin 1024, u (ix2 i k) * A3 (ix2 h k)) + A4 (ix1 h)) := by
  show Ideal.tanh
      (FloatOps.dotGeneral dot_S64x1024_S1024x300_S64x300_1_0_0_1_n_n none .single u
          (transpose S1024x300 [1, 0] A3 transposes_S300x1024_S1024x300_1_0) (ix2 i h)
        + broadcastInDim S64x300 ![0, 1] bcast_S1x300_S64x300_0_1 (broadcastInDim S1x300 ![1] bcast_S300_S1x300_1 A4) (ix2 i h)) = _
  rw [Cert.DotNN.dotGeneral_apply dot_S64x1024_S1024x300_S64x300_1_0_0_1_n_n rfl, Cert.RowBias.rowInDim_apply, row300_apply]
  refine congrArg (fun z => Ideal.tanh (z + A4 (ix1 h))) (Finset.sum_congr rfl fun k _ => ?_)
  rw [transpose_ix2_apply]

/-- The output layer at (i, o). -/
theorem output_apply (hd : FVec Ideal S64x300 .f32) (A5 : FVec Ideal S2x300 .f32) (A6 : FVec Ideal S2 .f32)
    (i : Fin 64) (o : Fin 2) :
    output (F := Ideal) hd A5 A6 (ix2 i o) = (∑ h : Fin 300, hd (ix2 i h) * A5 (ix2 o h)) + A6 (ix1 o) := by
  show FloatOps.dotGeneral dot_S64x300_S300x2_S64x2_1_0_0_1_n_n none .single hd
          (transpose S300x2 [1, 0] A5 transposes_S2x300_S300x2_1_0) (ix2 i o)
        + broadcastInDim S64x2 ![0, 1] bcast_S1x2_S64x2_0_1 (broadcastInDim S1x2 ![1] bcast_S2_S1x2_1 A6) (ix2 i o) = _
  rw [Cert.DotNN.dotGeneral_apply dot_S64x300_S300x2_S64x2_1_0_0_1_n_n rfl, Cert.RowBias.rowInDim_apply, row2_apply]
  refine congrArg (fun z => z + A6 (ix1 o)) (Finset.sum_congr rfl fun h _ => ?_)
  rw [transpose_ix2_apply]

/-! ## The composed term is the specification -/

/-- The reference's result, as a function of the seven argument arrays, is the specification's. -/
theorem result_eq (A0 : FVec Ideal S64x2048x1024 .f32) (A1 : IVec S64x2048 32) (A2 : FVec Ideal S64x2048x1 .f32)
    (A3 : FVec Ideal S300x1024 .f32) (A4 : FVec Ideal S300 .f32) (A5 : FVec Ideal S2x300 .f32) (A6 : FVec Ideal S2 .f32) :
    result (F := Ideal) A0 A1 A2 A3 A4 A5 A6 = Cert.SegMLP.refOut A0 A1 A2 A3 A4 A5 A6 := by
  funext idx
  obtain ⟨i, o, rfl⟩ : ∃ (i : Fin 64) (o : Fin 2), idx = ix2 i o := ⟨idx 0, idx 1, eq_ix2 idx⟩
  show output (F := Ideal) (hidden (F := Ideal) (average (F := Ideal) A0 A2 (segEnd (F := Ideal) A1)) A3 A4) A5 A6 (ix2 i o)
    = (∑ h : Fin 300, Ideal.tanh ((∑ k : Fin 1024,
          Cert.SegMLP.euphR (fun i j k => A0 (ix3 i j k)) (fun i j => A2 (ix3 i j (0 : Fin 1))) (fun i => Cert.SegMLP.endInd A1 (ix1 i)) i k
            * A3 (ix2 h k)) + A4 (ix1 h)) * A5 (ix2 o h)) + A6 (ix1 o)
  rw [output_apply]
  refine congrArg (fun z => z + A6 (ix1 o)) (Finset.sum_congr rfl fun h _ => ?_)
  rw [hidden_apply]
  refine congrArg (fun z => Ideal.tanh (z + A4 (ix1 h)) * A5 (ix2 o h)) (Finset.sum_congr rfl fun k _ => ?_)
  rw [average_apply, segEnd_eq]
  rfl

/-- On every device, from any memory with zero counters: every weakly fair execution of the reference terminates with the
    result buffer at the specification of the argument buffers' contents, and the argument buffers unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
        = Cert.SegMLP.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (result_eq _ _ _ _ _ _ _), (h c).2⟩) (run m ρ)

end Cert.ReferenceIdeal.RefValue

end
-- ==== Proof.KBody.lean ====
import proofs.«100456_j75849122448044_2_alg».proof.Proof.Gen.KernelIdeal.Frame
import Idealize.ShloMosaic.Lib.Pipeline.Value
import Idealize.ShloMosaic.Lib.Tactic

/-!
  What one run of the kernel body leaves behind, as pure functions of the blocks it loads.

  The body adds to the 16 x 1024 accumulator the eight chunk sums of its 16 x 256 x 1024 input block weighted by the
  16 x 256 x 1 mask block (`tileAdd`); at the first sequence tile the accumulator it adds to is the zero block it has
  just stored; at the last sequence tile it also stores the perceptron of the new accumulator divided by the guarded
  lengths.
-/

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- Rows `o .. o + 31` (middle axis) of an input block. -/
abbrev xrows (x0 : Vec F S16x256x1024 .f32) (o : Nat)
    (h : ∀ a, (![0, o, 0] : Fin 3 → Nat) a + S16x32x1024.size a ≤ S16x256x1024.size a) : Vec F S16x32x1024 .f32 :=
  View.ld x0 (Rect.unit ![0, o, 0] S16x32x1024.size h)

/-- Rows `o .. o + 31` (middle axis) of a mask block. -/
abbrev mrows (x1 : Vec F S16x256x1 .f32) (o : Nat)
    (h : ∀ a, (![0, o, 0] : Fin 3 → Nat) a + S16x32x1.size a ≤ S16x256x1.size a) : Vec F S16x32x1 .f32 :=
  View.ld x1 (Rect.unit ![0, o, 0] S16x32x1.size h)

/-- The accumulator after one sequence tile: `acc` plus the eight weighted chunk sums of the tile, added from zero. -/
def tileAdd (acc : Vec F S16x1024 .f32) (x0 : Vec F S16x256x1024 .f32) (x1 : Vec F S16x256x1 .f32) : Vec F S16x1024 .f32 :=
  k0_pay1
    (k0_pay6 (k0_pay4 (xrows x0 0 (by decide)) (mrows x1 0 (by decide)) (xrows x0 32 (by decide)) (mrows x1 32 (by decide)))
      (xrows x0 64 (by decide)) (k0_pay5 (mrows x1 64 (by decide))) (xrows x0 96 (by decide)) (mrows x1 96 (by decide)) (xrows x0 128 (by decide)) (mrows x1 128 (by decide)) (xrows x0 160 (by decide)) (mrows x1 160 (by decide)))
    (xrows x0 192 (by decide)) (mrows x1 192 (by decide)) (xrows x0 224 (by decide)) (mrows x1 224 (by decide)) acc

/-- At a middle sequence tile the body leaves `tileAdd` of what the accumulator held. -/
theorem sout_B (c : Dev nD) (i : grid0.Coords) (arg2 : Memref sig .tc .vmem S16x256x1024 .f32) (harg2 : arg2.IsWhole) (arg3 : Memref sig .tc .vmem S16x256x1 .f32) (harg3 : arg3.IsWhole) (arg4 : Memref sig .tc .vmem S16x1 .f32) (harg4 : arg4.IsWhole) (arg5 : Memref sig .tc .vmem S300x1024 .f32) (harg5 : arg5.IsWhole) (arg6 : Memref sig .tc .vmem S300 .f32) (harg6 : arg6.IsWhole) (arg7 : Memref sig .tc .vmem S2x300 .f32) (harg7 : arg7.IsWhole) (arg8 : Memref sig .tc .vmem S2 .f32) (harg8 : arg8.IsWhole) (arg9 : Memref sig .tc .vmem S16x2 .f32) (harg9 : arg9.IsWhole) (arg10 : Memref sig .tc .vmem S16x1024 .f32) (harg10 : arg10.IsWhole) (hc0 : ¬cond0_0 i) (hc1 : ¬cond0_1 i) (x0 : Vec F S16x256x1024 .f32) (x1 : Vec F S16x256x1 .f32) (x2 : Vec F S16x1 .f32) (x3 : Vec F S300x1024 .f32) (x4 : Vec F S300 .f32) (x5 : Vec F S2x300 .f32) (x6 : Vec F S2 .f32) (xs0 : Vec F S16x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = tileAdd xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_run_names
  rw [View.canon_unit_zero hz2]
  simp only [View.readAt_eq_ld, harg2.read_unread, harg3.read_unread, harg10.read_unread, View.ld_unit_zero (S := S16x1024) hz2]
  rfl

/-- At the last sequence tile the accumulator is left the same way. -/
theorem sout_C (c : Dev nD) (i : grid0.Coords) (arg2 : Memref sig .tc .vmem S16x256x1024 .f32) (harg2 : arg2.IsWhole) (arg3 : Memref sig .tc .vmem S16x256x1 .f32) (harg3 : arg3.IsWhole) (arg4 : Memref sig .tc .vmem S16x1 .f32) (harg4 : arg4.IsWhole) (arg5 : Memref sig .tc .vmem S300x1024 .f32) (harg5 : arg5.IsWhole) (arg6 : Memref sig .tc .vmem S300 .f32) (harg6 : arg6.IsWhole) (arg7 : Memref sig .tc .vmem S2x300 .f32) (harg7 : arg7.IsWhole) (arg8 : Memref sig .tc .vmem S2 .f32) (harg8 : arg8.IsWhole) (arg9 : Memref sig .tc .vmem S16x2 .f32) (harg9 : arg9.IsWhole) (arg10 : Memref sig .tc .vmem S16x1024 .f32) (harg10 : arg10.IsWhole) (hc0 : ¬cond0_0 i) (hc1 : cond0_1 i) (x0 : Vec F S16x256x1024 .f32) (x1 : Vec F S16x256x1 .f32) (x2 : Vec F S16x1 .f32) (x3 : Vec F S300x1024 .f32) (x4 : Vec F S300 .f32) (x5 : Vec F S2x300 .f32) (x6 : Vec F S2 .f32) (xs0 : Vec F S16x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = tileAdd xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_run_names
  rw [View.canon_unit_zero hz2]
  simp only [View.readAt_eq_ld, harg2.read_unread, harg3.read_unread, harg10.read_unread, View.ld_unit_zero (S := S16x1024) hz2]
  rfl

/-- At the first sequence tile the body stores the zero block, reads it back, and leaves `tileAdd` of it. -/
theorem sout_A (c : Dev nD) (i : grid0.Coords) (arg2 : Memref sig .tc .vmem S16x256x1024 .f32) (harg2 : arg2.IsWhole) (arg3 : Memref sig .tc .vmem S16x256x1 .f32) (harg3 : arg3.IsWhole) (arg4 : Memref sig .tc .vmem S16x1 .f32) (harg4 : arg4.IsWhole) (arg5 : Memref sig .tc .vmem S300x1024 .f32) (harg5 : arg5.IsWhole) (arg6 : Memref sig .tc .vmem S300 .f32) (harg6 : arg6.IsWhole) (arg7 : Memref sig .tc .vmem S2x300 .f32) (harg7 : arg7.IsWhole) (arg8 : Memref sig .tc .vmem S2 .f32) (harg8 : arg8.IsWhole) (arg9 : Memref sig .tc .vmem S16x2 .f32) (harg9 : arg9.IsWhole) (arg10 : Memref sig .tc .vmem S16x1024 .f32) (harg10 : arg10.IsWhole) (hc0 : cond0_0 i) (hc1 : ¬cond0_1 i) (x0 : Vec F S16x256x1024 .f32) (x1 : Vec F S16x256x1 .f32) (x2 : Vec F S16x1 .f32) (x3 : Vec F S300x1024 .f32) (x4 : Vec F S300 .f32) (x5 : Vec F S2x300 .f32) (x6 : Vec F S2 .f32) :
    sout0_A_0 c i arg2 harg2 arg3 harg3 arg4 harg4 arg5 harg5 arg6 harg6 arg7 harg7 arg8 harg8 arg9 harg9 arg10 harg10 hc0 hc1 x0 x1 x2 x3 x4 x5 x6 = tileAdd k0_pay3 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_run_names
  rw [View.canon_cons_unit_zero (S := S16x1024) hz2, View.readCov_unit_zero (S := S16x1024) _ hz2]
  simp only [View.readAt_eq_ld, harg2.read_unread, harg3.read_unread]
  rfl

/-- At the last sequence tile the output block is the perceptron payload of the lengths block, the new accumulator
    and the four weight blocks. -/
theorem out_C (c : Dev nD) (i : grid0.Coords) (arg2 : Memref sig .tc .vmem S16x256x1024 .f32) (harg2 : arg2.IsWhole) (arg3 : Memref sig .tc .vmem S16x256x1 .f32) (harg3 : arg3.IsWhole) (arg4 : Memref sig .tc .vmem S16x1 .f32) (harg4 : arg4.IsWhole) (arg5 : Memref sig .tc .vmem S300x1024 .f32) (harg5 : arg5.IsWhole) (arg6 : Memref sig .tc .vmem S300 .f32) (harg6 : arg6.IsWhole) (arg7 : Memref sig .tc .vmem S2x300 .f32) (harg7 : arg7.IsWhole) (arg8 : Memref sig .tc .vmem S2 .f32) (harg8 : arg8.IsWhole) (arg9 : Memref sig .tc .vmem S16x2 .f32) (harg9 : arg9.IsWhole) (arg10 : Memref sig .tc .vmem S16x1024 .f32) (harg10 : arg10.IsWhole) (hc0 : ¬cond0_0 i) (hc1 : cond0_1 i) (x0 : Vec F S16x256x1024 .f32) (x1 : Vec F S16x256x1 .f32) (x2 : Vec F S16x1 .f32) (x3 : Vec F S300x1024 .f32) (x4 : Vec F S300 .f32) (x5 : Vec F S2x300 .f32) (x6 : Vec F S2 .f32) (xs0 : Vec F S16x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x2 (tileAdd xs0 x0 x1) x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_run_names
  rw [View.canon_unit_zero hz2, View.readCov_unit_zero (S := S16x1024) _ hz2]
  simp only [View.readAt_eq_ld, harg2.read_unread, harg3.read_unread, harg4.read_unread, harg5.read_unread, harg6.read_unread,
    harg7.read_unread, harg8.read_unread, harg10.read_unread, View.ld_unit_zero (S := S16x1024) hz2, View.ld_unit_zero (S := S16x1) hz2,
    View.ld_unit_zero (S := S300x1024) hz2, View.ld_unit_zero (S := S300) hz1, View.ld_unit_zero (S := S2x300) hz2,
    View.ld_unit_zero (S := S2) hz1]
  rfl

end Cert.KernelIdeal.Body

end
-- ==== Proof.LibMatmulNT.lean ====
/-
  A reusable lemma: a matrix product against a transposed right operand, read at an entry.

  A `tpu.matmul` of an [M, K] operand by an [N, K] operand — contracting axis 1 of the left with axis 1 of the right, no
  batch axes — accumulated into the zero splat, read over the extended reals at the output entry (p, q), is the inner
  product of row p of the left operand with row q of the right one:

      (L · Rᵀ)[p, q] = Σ_{k < K} L[p, k] · R[q, k].

  Generic in the extents M, K, N and in the operands' float formats; the dimension record may be any one that equals the
  library's M×K by N×K record (a printed program's own record does, by unfolding).
-/
import Idealize.ShloMosaic.PureOps.Ideal.Laws
import Idealize.ShloMosaic.Lib.ValueIdx

noncomputable section

namespace Cert.MatmulNT

open Idealize.ShloMosaic Idealize.ShloMosaic.ValueIdx

variable {M K N : Nat} {φ₁ φ₂ : FTy}

/-- The left operand's index at output (p, q) and contraction position k is (p, k). -/
theorem lhsIdx_transposedRhs (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index at output (p, q) and contraction position k is (q, k). -/
theorem rhsIdx_transposedRhs (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- A matrix product against a transposed right operand, into zeros, at entry (p, q): the inner product of row p of the
    left operand with row q of the right one. -/
theorem matmul_zero_apply (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.MatmulNT

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.KPay.lean ====
import proofs.«100456_j75849122448044_2_alg».proof.Proof.KBody
import proofs.«100456_j75849122448044_2_alg».proof.Proof.LibMatmulNT
import proofs.«100456_j75849122448044_2_alg».proof.Proof.LibKeepdims
import proofs.«100456_j75849122448044_2_alg».proof.Proof.LibRowBias
import Idealize.ShloMosaic.Lib.IdealHost
import Idealize.ShloMosaic.Lib.ValueIdx

/-!
  The body's two pure functions read at an entry, over the extended reals.

  `tileAdd acc x m` at (p, k) is `acc (p, k)` plus the eight chunk sums, chunk `c` being the sum over 32 rows `r` of
  `x (p, 32 c + r, k) * m (p, 32 c + r, 0)`, added from zero in order.  The perceptron payload at (p, o) is
  `(sum over h of tanh ((sum over k of (acc (p, k) / max (len (p, 0)) 1) * W1 (h, k)) + b1 h) * W2 (o, h)) + b2 o`:
  a change of float format is the identity and a matrix product into zeros is the inner product.
-/

noncomputable section

open Idealize.ShloMosaic Idealize.ShloMosaic.ValueIdx

namespace Cert.KernelIdeal.Body

open Cert.KernelIdeal Cert.KernelIdeal.Gen

/-- Row `o + r` of a 256-row block. -/
def rowAt (o : Nat) (r : Fin 32) (h : o + 32 ≤ 256) : Fin 256 := ⟨o + r.val, by have := r.isLt; omega⟩

theorem xrows_apply (x0 : Vec Ideal S16x256x1024 .f32) (o : Nat)
    (h : ∀ a, (![0, o, 0] : Fin 3 → Nat) a + S16x32x1024.size a ≤ S16x256x1024.size a) (ho : o + 32 ≤ 256)
    (p : Fin 16) (r : Fin 32) (k : Fin 1024) : xrows x0 o h (ix3 p r k) = x0 (ix3 p (rowAt o r ho) k) := by
  show x0 _ = x0 _
  refine congrArg x0 (funext fun a => Fin.ext ?_)
  match a with
  | ⟨0, _⟩ => show 0 + 1 * p.val = p.val; omega
  | ⟨1, _⟩ => show o + 1 * r.val = o + r.val; omega
  | ⟨2, _⟩ => show 0 + 1 * k.val = k.val; omega

theorem mrows_apply (x1 : Vec Ideal S16x256x1 .f32) (o : Nat)
    (h : ∀ a, (![0, o, 0] : Fin 3 → Nat) a + S16x32x1.size a ≤ S16x256x1.size a) (ho : o + 32 ≤ 256)
    (p : Fin 16) (r : Fin 32) (u : Fin 1) : mrows x1 o h (ix3 p r u) = x1 (ix3 p (rowAt o r ho) u) := by
  show x1 _ = x1 _
  refine congrArg x1 (funext fun a => Fin.ext ?_)
  match a with
  | ⟨0, _⟩ => show 0 + 1 * p.val = p.val; omega
  | ⟨1, _⟩ => show o + 1 * r.val = o + r.val; omega
  | ⟨2, _⟩ => show 0 + 1 * u.val = u.val; omega

/-- One chunk's weighted lane sum: the 16 x 32 x 1024 rows times the 16 x 32 x 1 mask rows, summed over the 32 rows. -/
def wsum (xr : Vec Ideal S16x32x1024 .f32) (mr : Vec Ideal S16x32x1 .f32) : FVec Ideal S16x1024 .f32 :=
  multiReduction .add [1] S16x1024 (mulf xr (broadcastTo S16x32x1024 mr Facts₀.broadcasts_S16x32x1_S16x32x1024)) 0x00000000#32
    Facts₀.reduces_S16x32x1024_S16x1024 (.inl rfl) rfl

theorem lift_mid (p : Fin 16) (k : Fin 1024) (r : Fin 32) :
    Facts₀.reduces_S16x32x1024_S16x1024.lift (ix2 p k) r = ix3 p r k :=
  funext fun c => Fin.ext (by
    match c with
    | ⟨0, _⟩ => rfl
    | ⟨1, _⟩ => rfl
    | ⟨2, _⟩ => rfl)

theorem maskTo_apply (mr : Vec Ideal S16x32x1 .f32) (p : Fin 16) (r : Fin 32) (k : Fin 1024) :
    broadcastTo S16x32x1024 mr Facts₀.broadcasts_S16x32x1_S16x32x1024 (ix3 p r k) = mr (ix3 p r (0 : Fin 1)) := by
  refine broadcastTo_apply mr _ (ix3 p r k) (ix3 p r (0 : Fin 1)) fun ax => ?_
  match ax with
  | ⟨0, _⟩ => rfl
  | ⟨1, _⟩ => rfl
  | ⟨2, _⟩ => rfl

theorem wsum_apply (xr : Vec Ideal S16x32x1024 .f32) (mr : Vec Ideal S16x32x1 .f32) (p : Fin 16) (k : Fin 1024) :
    wsum xr mr (ix2 p k) = ∑ r : Fin 32, xr (ix3 p r k) * mr (ix3 p r (0 : Fin 1)) := by
  unfold wsum
  refine (Ideal.multiReduction_add_single _ 0x00000000#32 Facts₀.reduces_S16x32x1024_S16x1024 (.inl rfl) rfl (ix2 p k)).trans ?_
  show (∑ r : Fin 32, _) = _
  refine Finset.sum_congr rfl fun r _ => ?_
  rw [lift_mid]
  show xr (ix3 p r k) * broadcastTo S16x32x1024 mr Facts₀.broadcasts_S16x32x1_S16x32x1024 (ix3 p r k) = _
  rw [maskTo_apply]

/-- `tileAdd` with the identity casts removed: the accumulator plus the chunk sums added from zero. -/
theorem tileAdd_eq (acc : Vec Ideal S16x1024 .f32) (x0 : Vec Ideal S16x256x1024 .f32) (x1 : Vec Ideal S16x256x1 .f32) :
    tileAdd acc x0 x1 = fun idx => acc idx + ((((((((Ideal.ofBits .f32 0x00000000#32
      + wsum (xrows x0 0 (by decide)) (mrows x1 0 (by decide)) idx) + wsum (xrows x0 32 (by decide)) (mrows x1 32 (by decide)) idx)
      + wsum (xrows x0 64 (by decide)) (mrows x1 64 (by decide)) idx) + wsum (xrows x0 96 (by decide)) (mrows x1 96 (by decide)) idx)
      + wsum (xrows x0 128 (by decide)) (mrows x1 128 (by decide)) idx) + wsum (xrows x0 160 (by decide)) (mrows x1 160 (by decide)) idx)
      + wsum (xrows x0 192 (by decide)) (mrows x1 192 (by decide)) idx) + wsum (xrows x0 224 (by decide)) (mrows x1 224 (by decide)) idx) := by
  unfold tileAdd k0_pay1 k0_pay6 k0_pay4 k0_pay5
  simp only [shapeCast_self]
  rfl

theorem tileAdd_apply (acc : Vec Ideal S16x1024 .f32) (x0 : Vec Ideal S16x256x1024 .f32) (x1 : Vec Ideal S16x256x1 .f32)
    (p : Fin 16) (k : Fin 1024) :
    tileAdd acc x0 x1 (ix2 p k) = acc (ix2 p k) + ((((((((0 + (∑ r : Fin 32, x0 (ix3 p (rowAt 0 r (by decide)) k) * x1 (ix3 p (rowAt 0 r (by decide)) (0 : Fin 1)))) + (∑ r : Fin 32, x0 (ix3 p (rowAt 32 r (by decide)) k) * x1 (ix3 p (rowAt 32 r (by decide)) (0 : Fin 1)))) + (∑ r : Fin 32, x0 (ix3 p (rowAt 64 r (by decide)) k) * x1 (ix3 p (rowAt 64 r (by decide)) (0 : Fin 1)))) + (∑ r : Fin 32, x0 (ix3 p (rowAt 96 r (by decide)) k) * x1 (ix3 p (rowAt 96 r (by decide)) (0 : Fin 1))))
      + (∑ r : Fin 32, x0 (ix3 p (rowAt 128 r (by decide)) k) * x1 (ix3 p (rowAt 128 r (by decide)) (0 : Fin 1)))) + (∑ r : Fin 32, x0 (ix3 p (rowAt 160 r (by decide)) k) * x1 (ix3 p (rowAt 160 r (by decide)) (0 : Fin 1)))) + (∑ r : Fin 32, x0 (ix3 p (rowAt 192 r (by decide)) k) * x1 (ix3 p (rowAt 192 r (by decide)) (0 : Fin 1)))) + (∑ r : Fin 32, x0 (ix3 p (rowAt 224 r (by decide)) k) * x1 (ix3 p (rowAt 224 r (by decide)) (0 : Fin 1)))) := by
  rw [tileAdd_eq]
  simp only [wsum_apply, xrows_apply x0 0 _ (by decide), xrows_apply x0 32 _ (by decide), xrows_apply x0 64 _ (by decide), xrows_apply x0 96 _ (by decide), xrows_apply x0 128 _ (by decide), xrows_apply x0 160 _ (by decide), xrows_apply x0 192 _ (by decide), xrows_apply x0 224 _ (by decide), mrows_apply x1 0 _ (by decide), mrows_apply x1 32 _ (by decide), mrows_apply x1 64 _ (by decide), mrows_apply x1 96 _ (by decide), mrows_apply x1 128 _ (by decide), mrows_apply x1 160 _ (by decide), mrows_apply x1 192 _ (by decide), mrows_apply x1 224 _ (by decide), Ideal.ofBits_zero_f32]

/-- The zero block the first sequence tile stores. -/
theorem zeroBlock_apply (idx : S16x1024.Idx) : (k0_pay3 (F := Ideal)) idx = 0 := by
  unfold k0_pay3
  simp only [shapeCast_self]
  exact Ideal.ofBits_zero_f32

theorem rowCast_apply {n : ℕ} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_two, Shape.rowMajor_val_one]
    show q.val = 0 * n + q.val
    omega)

/-- The perceptron payload at an entry. -/
theorem pay2_apply (x2 : Vec Ideal S16x1 .f32) (acc : Vec Ideal S16x1024 .f32) (x3 : Vec Ideal S300x1024 .f32)
    (x4 : Vec Ideal S300 .f32) (x5 : Vec Ideal S2x300 .f32) (x6 : Vec Ideal S2 .f32) (p : Fin 16) (o : Fin 2) :
    k0_pay2 x2 acc x3 x4 x5 x6 (ix2 p o)
      = (∑ h : Fin 300, Ideal.tanh ((∑ k : Fin 1024, Ideal.div (acc (ix2 p k)) (max (x2 (ix2 p (0 : Fin 1))) 1) * x3 (ix2 h k))
          + x4 (ix1 h)) * x5 (ix2 o h)) + x6 (ix1 o) := by
  unfold k0_pay2
  simp only [shapeCast_self]
  refine (Cert.RowBias.bodyBias_apply _ _ _ p o).trans ?_
  rw [rowCast_apply]
  congr 1
  refine (Cert.MatmulNT.matmul_zero_apply dot_S16x300_S2x300_S16x2_1_1_0_0_n_n rfl none _ _ p o).trans ?_
  refine Finset.sum_congr rfl fun h _ => ?_
  congr 1
  show Ideal.tanh _ = _
  congr 1
  refine (Cert.RowBias.bodyBias_apply _ _ _ p h).trans ?_
  rw [rowCast_apply]
  congr 1
  refine (Cert.MatmulNT.matmul_zero_apply dot_S16x1024_S300x1024_S16x300_1_1_0_0_n_n rfl none _ _ p h).trans ?_
  refine Finset.sum_congr rfl fun k _ => ?_
  congr 1
  show Ideal.div (acc (ix2 p k)) (broadcastTo S16x1024 _ Facts₀.broadcasts_S16x1_S16x1024 (ix2 p k)) = _
  rw [Cert.Keepdims.broadcastTo_a1_ab_apply]
  show Ideal.div _ (max (x2 (ix2 p (0 : Fin 1))) (Ideal.ofBits .f32 0x3F800000#32)) = _
  rw [Ideal.ofBits_one_f32]

end Cert.KernelIdeal.Body

end
-- ==== Proof.KHost.lean ====
import proofs.«100456_j75849122448044_2_alg».proof.Proof.Gen.KernelIdeal.Frame
import proofs.«100456_j75849122448044_2_alg».proof.Proof.Spec
import proofs.«100456_j75849122448044_2_alg».proof.Proof.LibKeepdims
import Idealize.ShloMosaic.Lib.StableHlo.Run
import Idealize.ShloMosaic.Lib.Pipeline.Value
import Idealize.ShloMosaic.Lib.IdealHost
import Idealize.ShloMosaic.Lib.ValueIdx

/-!
  What the host operations before the kernel region leave in the two arrays the kernel stages besides the arguments.

  From the token ids the host computes the 64 segment lengths `E`, then the mask array
  `mask (i, j, 0) = drop_mask (i, j, 0) * [j < E i]` and the column of guarded lengths `max (E i) 1`.
-/

noncomputable section

open Idealize.ShloMosaic Idealize.ShloMosaic.TcCoe Idealize.SL.Sem Idealize.ShloMosaic.ValueIdx

namespace Cert.KernelIdeal.HostPre

open Cert.KernelIdeal Cert.KernelIdeal.Gen

/-- The mask array as the host builds it from the keep-mask and the segment lengths. -/
def maskOf (A2 : FVec Ideal S64x2048x1 .f32) (E : IVec S64 32) : FVec Ideal S64x2048x1 .f32 :=
  broadcastInDim S64x2048x1 ![0, 1] Facts₀.bcast_S64x2048_S64x2048x1_0_1
    (mulf (shapeCast S64x2048 A2 Facts₀.shapeCasts_S64x2048x1_S64x2048)
      (uitofp .f32 (cmpi .slt
        (broadcastInDim S64x2048 ![0, 1] Facts₀.bcast_S1x2048_S64x2048_0_1
          (broadcastInDim S1x2048 ![1] Facts₀.bcast_S2048_S1x2048_1 (iotaInDim S2048 32 0)))
        (broadcastInDim S64x2048 ![0, 1] Facts₀.bcast_S64x1_S64x2048_0_1
          (broadcastInDim S64x1 ![0] Facts₀.bcast_S64_S64x1_0 E)))))

/-- The column of guarded lengths. -/
def lenColOf (E : IVec S64 32) : FVec Ideal S64x1 .f32 :=
  shapeCast S64x1 (maximumf (sitofp .f32 E)
    (broadcastInDim S64 ![] Facts₀.bcast_S_S64 (constant (F := Ideal) S_ .f32 0x3F800000#32))) Facts₀.shapeCasts_S64_S64x1

/-- The mask array at an entry: the keep-mask times the indicator of the position lying before the row's segment end. -/
theorem maskOf_apply (A2 : FVec Ideal S64x2048x1 .f32) (E : IVec S64 32) (i : Fin 64) (j : Fin 2048) :
    maskOf A2 E (ix3 i j (0 : Fin 1)) = A2 (ix3 i j (0 : Fin 1)) * Cert.SegMLP.valid (E (ix1 i)) j := by
  unfold maskOf
  rw [broadcastInDim_apply _ _ _ (ix3 i j (0 : Fin 1)) (ix2 i j) (fun a => by
    match a with
    | ⟨0, _⟩ => rfl
    | ⟨1, _⟩ => rfl)]
  show shapeCast S64x2048 A2 _ (ix2 i j) * _ = _
  rw [shapeCast_apply A2 _ (ix2 i j) (ix3 i j (0 : Fin 1)) (by
    rw [Shape.rowMajor_val_two, Shape.rowMajor_val_three]
    show (i.val * 2048 + j.val) * 1 + 0 = i.val * 2048 + j.val
    omega)]
  congr 1
  show (((IntOp.cmpi .slt _ _).toNat : ℝ) : EReal) = _
  unfold Cert.SegMLP.valid
  rw [broadcastInDim_apply _ _ _ (ix2 i j) (ix2 (0 : Fin 1) j) (fun a => by
      match a with
      | ⟨0, _⟩ => rfl
      | ⟨1, _⟩ => rfl),
    broadcastInDim_apply _ _ _ (ix2 (0 : Fin 1) j) (ix1 j) (fun a => by
      match a with
      | ⟨0, _⟩ => rfl),
    broadcastInDim_apply _ _ _ (ix2 i j) (ix2 i (0 : Fin 1)) (fun a => by
      match a with
      | ⟨0, _⟩ => rfl
      | ⟨1, _⟩ => rfl),
    broadcastInDim_apply _ _ _ (ix2 i (0 : Fin 1)) (ix1 i) (fun a => by
      match a with
      | ⟨0, _⟩ => rfl)]
  rfl

/-- The guarded length of a row. -/
theorem lenColOf_apply (E : IVec S64 32) (i : Fin 64) :
    lenColOf E (ix2 i (0 : Fin 1)) = max (Cert.SegMLP.len (E (ix1 i))) 1 := by
  unfold lenColOf
  rw [Cert.Keepdims.shapeCast_a_a1_apply]
  show max (((E (ix1 i)).toInt : ℝ) : EReal) (Ideal.ofBits .f32 0x3F800000#32) = _
  rw [Ideal.ofBits_one_f32]
  rfl

variable (m : (ℓ : Loc nD τ sig) → Buf (Elt Ideal) ℓ)

/-- The segment lengths the region finds are the specification's, of the token ids. -/
theorem V_lengths (c : Dev nD) :
    (V m c main_v4 : S64.Idx → BitVec 32) = Cert.SegMLP.endInd (m ((c : Thread nD τ).loc main_arg1)) := by
  show StableHlo.after (List.flatten [hostOps0, hostOps0_1, hostOps0_2, hostOps0_3, hostOps0_4]) (fun b => m (c, b)) (Proc.devRef .tc main_v4) = _
  simp only [Gen.hostOps0, Gen.hostOps0_1, Gen.hostOps0_2, Gen.hostOps0_3, Gen.hostOps0_4, List.flatten_cons, List.flatten_nil, List.append_nil, List.cons_append, List.nil_append]
  after_results_simp
  simp only [cast_eq, id]
  rfl

theorem V_mask (c : Dev nD) :
    (V m c main_v15 : S64x2048x1.Idx → EReal)
      = maskOf (m ((c : Thread nD τ).loc main_arg2)) (Cert.SegMLP.endInd (m ((c : Thread nD τ).loc main_arg1))) := by
  show StableHlo.after (List.flatten [hostOps0, hostOps0_1, hostOps0_2, hostOps0_3, hostOps0_4]) (fun b => m (c, b)) (Proc.devRef .tc main_v15) = _
  simp only [Gen.hostOps0, Gen.hostOps0_1, Gen.hostOps0_2, Gen.hostOps0_3, Gen.hostOps0_4, List.flatten_cons, List.flatten_nil, List.append_nil, List.cons_append, List.nil_append]
  after_results_simp
  simp only [cast_eq, id]
  rfl

theorem V_lenCol (c : Dev nD) :
    (V m c main_v18 : S64x1.Idx → EReal) = lenColOf (Cert.SegMLP.endInd (m ((c : Thread nD τ).loc main_arg1))) := by
  show StableHlo.after (List.flatten [hostOps0, hostOps0_1, hostOps0_2, hostOps0_3, hostOps0_4]) (fun b => m (c, b)) (Proc.devRef .tc main_v18) = _
  simp only [Gen.hostOps0, Gen.hostOps0_1, Gen.hostOps0_2, Gen.hostOps0_3, Gen.hostOps0_4, List.flatten_cons, List.flatten_nil, List.append_nil, List.cons_append, List.nil_append]
  after_results_simp
  simp only [cast_eq, id]
  rfl

end Cert.KernelIdeal.HostPre

end
-- ==== Proof.KBlocks.lean ====
import proofs.«100456_j75849122448044_2_alg».proof.Proof.Gen.KernelIdeal.Frame
import proofs.«100456_j75849122448044_2_alg».proof.Proof.Spec
import proofs.«100456_j75849122448044_2_alg».proof.Proof.KPay
import Idealize.ShloMosaic.Lib.Pipeline.Value
import Idealize.ShloMosaic.Lib.ValueIdx

/-!
  The blocks the kernel reads at a grid point, as entries of the arrays.

  Point `t` of the 4 x 8 grid (batch tile `t / 8`, sequence tile `t % 8`) stages rows `16 (t / 8) ..` and positions
  `256 (t % 8) ..` of the inputs and of the mask array, rows `16 (t / 8) ..` of the length column, and the four weight
  arrays whole.  So a chunk sum over a block is a chunk sum of the specification over the arrays.
-/

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Body

variable (m : (ℓ : Loc nD τ sig) → Buf (Elt Ideal) ℓ)

/-- The printed index maps, decided over the 32 grid points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val / 8 ∧ win0_7.index t (1 : Fin 2) = 0 :=
  (by decide +kernel : ∀ t : Fin grid0.N, _)

/-- The input block at a point, at an entry. -/
theorem iblk0_apply (c : Dev nD) (t : Fin cfg0.N) (p : Fin 16) (q : Fin 256) (k : Fin 1024) (i : Fin 64) (j : Fin 2048)
    (hi : i.val = 16 * (t.val / 8) + p.val) (hj : j.val = 256 * (t.val % 8) + q.val) :
    (iblk m c 0 t : Vec Ideal S16x256x1024 .f32) (ix3 p q k) = m ((c : Thread nD τ).loc main_arg0) (ix3 i j k) := by
  obtain ⟨h0, h1, h2, -⟩ := idx_facts t
  show V m c main_arg0 (((cfg0.win 0).blk t).view.emb (ix3 p q k)) = _
  rw [V_main_arg0]
  refine congrArg _ (funext fun a => Fin.ext ?_)
  match a with
  | ⟨0, _⟩ => show win0_0.index t (0 : Fin 3) * 16 + 1 * p.val = i.val; rw [h0]; omega
  | ⟨1, _⟩ => show win0_0.index t (1 : Fin 3) * 256 + 1 * q.val = j.val; rw [h1]; omega
  | ⟨2, _⟩ => show win0_0.index t (2 : Fin 3) * 1024 + 1 * k.val = k.val; rw [h2]; omega

/-- The mask block at a point, at an entry. -/
theorem iblk1_apply (c : Dev nD) (t : Fin cfg0.N) (p : Fin 16) (q : Fin 256) (u : Fin 1) (i : Fin 64) (j : Fin 2048)
    (hi : i.val = 16 * (t.val / 8) + p.val) (hj : j.val = 256 * (t.val % 8) + q.val) :
    (iblk m c 1 t : Vec Ideal S16x256x1 .f32) (ix3 p q u) = V m c main_v15 (ix3 i j u) := by
  obtain ⟨-, -, -, h0, h1, h2, -⟩ := idx_facts t
  show V m c main_v15 (((cfg0.win 1).blk t).view.emb (ix3 p q u)) = _
  refine congrArg _ (funext fun a => Fin.ext ?_)
  match a with
  | ⟨0, _⟩ => show win0_1.index t (0 : Fin 3) * 16 + 1 * p.val = i.val; rw [h0]; omega
  | ⟨1, _⟩ => show win0_1.index t (1 : Fin 3) * 256 + 1 * q.val = j.val; rw [h1]; omega
  | ⟨2, _⟩ => show win0_1.index t (2 : Fin 3) * 1 + 1 * u.val = u.val; rw [h2]; omega

/-- The length block at a point, at an entry. -/
theorem iblk2_apply (c : Dev nD) (t : Fin cfg0.N) (p : Fin 16) (u : Fin 1) (i : Fin 64)
    (hi : i.val = 16 * (t.val / 8) + p.val) :
    (iblk m c 2 t : Vec Ideal S16x1 .f32) (ix2 p u) = V m c main_v18 (ix2 i u) := by
  obtain ⟨-, -, -, -, -, -, h0, h1, -⟩ := idx_facts t
  show V m c main_v18 (((cfg0.win 2).blk t).view.emb (ix2 p u)) = _
  refine congrArg _ (funext fun a => Fin.ext ?_)
  match a with
  | ⟨0, _⟩ => show win0_2.index t (0 : Fin 2) * 16 + 1 * p.val = i.val; rw [h0]; omega
  | ⟨1, _⟩ => show win0_2.index t (1 : Fin 2) * 1 + 1 * u.val = u.val; rw [h1]; omega

/-- The first weight matrix is staged whole. -/
theorem iblk3_apply (c : Dev nD) (t : Fin cfg0.N) (h : Fin 300) (k : Fin 1024) :
    (iblk m c 3 t : Vec Ideal S300x1024 .f32) (ix2 h k) = m ((c : Thread nD τ).loc main_arg3) (ix2 h k) := by
  obtain ⟨-, -, -, -, -, -, -, -, h0, h1, -⟩ := idx_facts t
  show V m c main_arg3 (((cfg0.win 3).blk t).view.emb (ix2 h k)) = _
  rw [V_main_arg3]
  refine congrArg _ (funext fun a => Fin.ext ?_)
  match a with
  | ⟨0, _⟩ => show win0_3.index t (0 : Fin 2) * 300 + 1 * h.val = h.val; rw [h0]; omega
  | ⟨1, _⟩ => show win0_3.index t (1 : Fin 2) * 1024 + 1 * k.val = k.val; rw [h1]; omega

/-- The first bias vector is staged whole. -/
theorem iblk4_apply (c : Dev nD) (t : Fin cfg0.N) (h : Fin 300) :
    (iblk m c 4 t : Vec Ideal S300 .f32) (ix1 h) = m ((c : Thread nD τ).loc main_arg4) (ix1 h) := by
  obtain ⟨-, -, -, -, -, -, -, -, -, -, h0, -⟩ := idx_facts t
  show V m c main_arg4 (((cfg0.win 4).blk t).view.emb (ix1 h)) = _
  rw [V_main_arg4]
  refine congrArg _ (funext fun a => Fin.ext ?_)
  match a with
  | ⟨0, _⟩ => show win0_4.index t (0 : Fin 1) * 300 + 1 * h.val = h.val; rw [h0]; omega

/-- The second weight matrix is staged whole. -/
theorem iblk5_apply (c : Dev nD) (t : Fin cfg0.N) (o : Fin 2) (h : Fin 300) :
    (iblk m c 5 t : Vec Ideal S2x300 .f32) (ix2 o h) = m ((c : Thread nD τ).loc main_arg5) (ix2 o h) := by
  obtain ⟨-, -, -, -, -, -, -, -, -, -, -, h0, h1, -⟩ := idx_facts t
  show V m c main_arg5 (((cfg0.win 5).blk t).view.emb (ix2 o h)) = _
  rw [V_main_arg5]
  refine congrArg _ (funext fun a => Fin.ext ?_)
  match a with
  | ⟨0, _⟩ => show win0_5.index t (0 : Fin 2) * 2 + 1 * o.val = o.val; rw [h0]; omega
  | ⟨1, _⟩ => show win0_5.index t (1 : Fin 2) * 300 + 1 * h.val = h.val; rw [h1]; omega

/-- The second bias vector is staged whole. -/
theorem iblk6_apply (c : Dev nD) (t : Fin cfg0.N) (o : Fin 2) :
    (iblk m c 6 t : Vec Ideal S2 .f32) (ix1 o) = m ((c : Thread nD τ).loc main_arg6) (ix1 o) := by
  obtain ⟨-, -, -, -, -, -, -, -, -, -, -, -, -, h0, -⟩ := idx_facts t
  show V m c main_arg6 (((cfg0.win 6).blk t).view.emb (ix1 o)) = _
  rw [V_main_arg6]
  refine congrArg _ (funext fun a => Fin.ext ?_)
  match a with
  | ⟨0, _⟩ => show win0_6.index t (0 : Fin 1) * 2 + 1 * o.val = o.val; rw [h0]; omega

/-- The weighted term of row `i`, column `k`, at position `j`: the input entry times the mask entry. -/
def term (c : Dev nD) (i : Fin 64) (k : Fin 1024) (j : Fin 2048) : EReal :=
  @HMul.hMul EReal EReal EReal _ ((m ((c : Thread nD τ).loc main_arg0) : S64x2048x1024.Idx → EReal) (ix3 i j k))
    ((V m c main_v15 : S64x2048x1.Idx → EReal) (ix3 i j (0 : Fin 1)))

/-- A chunk sum over a block whose rows are positions `256 s ..` of a function `f` is the specification's chunk of `f`. -/
theorem chunk_of_rows (x0 : Vec Ideal S16x256x1024 .f32) (x1 : Vec Ideal S16x256x1 .f32) (p : Fin 16) (k : Fin 1024)
    (f : Fin 2048 → EReal) (s : Fin 8)
    (hf : ∀ (q : Fin 256) (j : Fin 2048), j.val = 256 * s.val + q.val → x0 (ix3 p q k) * x1 (ix3 p q (0 : Fin 1)) = f j)
    (o : Nat) (ho : o + 32 ≤ 256) (cc : Fin 8) (hc : o = 32 * cc.val) :
    (∑ r : Fin 32, x0 (ix3 p (rowAt o r ho) k) * x1 (ix3 p (rowAt o r ho) (0 : Fin 1))) = Cert.SegMLP.chunk f s cc := by
  unfold Cert.SegMLP.chunk
  refine Finset.sum_congr rfl fun r _ => ?_
  refine hf (rowAt o r ho) (Cert.SegMLP.pos s cc r) ?_
  show 256 * s.val + 32 * cc.val + r.val = 256 * s.val + (o + r.val)
  omega

/-- The eight chunk sums of such a block, added from zero, are the specification's tile sum. -/
theorem tile_of_rows (x0 : Vec Ideal S16x256x1024 .f32) (x1 : Vec Ideal S16x256x1 .f32) (p : Fin 16) (k : Fin 1024)
    (f : Fin 2048 → EReal) (s : Fin 8)
    (hf : ∀ (q : Fin 256) (j : Fin 2048), j.val = 256 * s.val + q.val → x0 (ix3 p q k) * x1 (ix3 p q (0 : Fin 1)) = f j) :
    ((((((((0 + (∑ r : Fin 32, x0 (ix3 p (rowAt 0 r (by decide)) k) * x1 (ix3 p (rowAt 0 r (by decide)) (0 : Fin 1))))
      + (∑ r : Fin 32, x0 (ix3 p (rowAt 32 r (by decide)) k) * x1 (ix3 p (rowAt 32 r (by decide)) (0 : Fin 1))))
      + (∑ r : Fin 32, x0 (ix3 p (rowAt 64 r (by decide)) k) * x1 (ix3 p (rowAt 64 r (by decide)) (0 : Fin 1))))
      + (∑ r : Fin 32, x0 (ix3 p (rowAt 96 r (by decide)) k) * x1 (ix3 p (rowAt 96 r (by decide)) (0 : Fin 1))))
      + (∑ r : Fin 32, x0 (ix3 p (rowAt 128 r (by decide)) k) * x1 (ix3 p (rowAt 128 r (by decide)) (0 : Fin 1))))
      + (∑ r : Fin 32, x0 (ix3 p (rowAt 160 r (by decide)) k) * x1 (ix3 p (rowAt 160 r (by decide)) (0 : Fin 1))))
      + (∑ r : Fin 32, x0 (ix3 p (rowAt 192 r (by decide)) k) * x1 (ix3 p (rowAt 192 r (by decide)) (0 : Fin 1))))
      + (∑ r : Fin 32, x0 (ix3 p (rowAt 224 r (by decide)) k) * x1 (ix3 p (rowAt 224 r (by decide)) (0 : Fin 1)))) = Cert.SegMLP.tile f s := by
  unfold Cert.SegMLP.tile
  rw [chunk_of_rows x0 x1 p k f s hf 0 (by decide) 0 rfl,
    chunk_of_rows x0 x1 p k f s hf 32 (by decide) 1 rfl,
    chunk_of_rows x0 x1 p k f s hf 64 (by decide) 2 rfl,
    chunk_of_rows x0 x1 p k f s hf 96 (by decide) 3 rfl,
    chunk_of_rows x0 x1 p k f s hf 128 (by decide) 4 rfl,
    chunk_of_rows x0 x1 p k f s hf 160 (by decide) 5 rfl,
    chunk_of_rows x0 x1 p k f s hf 192 (by decide) 6 rfl,
    chunk_of_rows x0 x1 p k f s hf 224 (by decide) 7 rfl]

/-- At point `t` the products of the input block and the mask block are the weighted terms of the arrays. -/
theorem rows_term (c : Dev nD) (t : Fin cfg0.N) (p : Fin 16) (k : Fin 1024) (i : Fin 64)
    (hi : i.val = 16 * (t.val / 8) + p.val) (s : Fin 8) (hs : s.val = t.val % 8) (q : Fin 256) (j : Fin 2048)
    (hj : j.val = 256 * s.val + q.val) :
    @HMul.hMul EReal EReal EReal _ ((iblk m c 0 t : Vec Ideal S16x256x1024 .f32) (ix3 p q k))
        ((iblk m c 1 t : Vec Ideal S16x256x1 .f32) (ix3 p q (0 : Fin 1)))
      = term m c i k j := by
  rw [iblk0_apply m c t p q k i j hi (by omega), iblk1_apply m c t p q (0 : Fin 1) i j hi (by omega)]
  rfl

end Cert.KernelIdeal.Blocks

end
-- ==== Proof.KValue.lean ====
import proofs.«100456_j75849122448044_2_alg».proof.Proof.Gen.KernelIdeal.Value
import proofs.«100456_j75849122448044_2_alg».proof.Proof.Spec
import proofs.«100456_j75849122448044_2_alg».proof.Proof.KBody
import proofs.«100456_j75849122448044_2_alg».proof.Proof.KPay
import proofs.«100456_j75849122448044_2_alg».proof.Proof.KHost
import proofs.«100456_j75849122448044_2_alg».proof.Proof.KBlocks
import Idealize.ShloMosaic.Lib.Pipeline.Value
import Idealize.ShloMosaic.Lib.ValueIdx

/-!
  The kernel's result array.

  Along each batch tile the accumulator after sequence tile `s` holds, at (p, k), the specification's `accum` of the
  weighted terms of row `16 (t / 8) + p` through `s + 1` tiles (induction on the grid point).  At the last sequence tile
  the body writes the perceptron of the accumulator divided by the guarded lengths, which is block `t / 8` of
  `kerOut` of the arguments; those four blocks cover the 64 x 2 result array.
-/

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Blocks Cert.KernelIdeal.HostPre

variable (m : (ℓ : Loc nD τ sig) → Buf (Elt Ideal) ℓ) (ρ : Dev nD → PrngReg)

theorem accum_succ (f : Fin 2048 → EReal) (s : ℕ) (h : s < 8) :
    Cert.SegMLP.accum f (s + 1) = Cert.SegMLP.accum f s + Cert.SegMLP.tile f ⟨s, h⟩ := by
  show Cert.SegMLP.accum f s + (if h : s < 8 then Cert.SegMLP.tile f ⟨s, h⟩ else 0) = _
  rw [dif_pos h]

/-- What the accumulator holds after grid point `n`: the weighted terms of its row added through `n % 8 + 1` tiles. -/
theorem scratch_eq (c : Dev nD) : ∀ (n : ℕ) (h : n < cfg0.N) (p : Fin 16) (k : Fin 1024) (i : Fin 64) (s : ℕ),
    i.val = 16 * (n / 8) + p.val → s = n % 8 →
    (outsAt0 m c n h).2 (ix2 p k) = Cert.SegMLP.accum (term m c i k) (s + 1)
  | 0, h, p, k, i, s, hi, hs => by
    have h0 : (⟨0, h⟩ : Fin cfg0.N).val % 8 = 0 := rfl
    have h1 : ¬(⟨0, h⟩ : Fin cfg0.N).val % 8 = 7 := by show ¬(0 : ℕ) % 8 = 7; decide
    have hs8 : s < 8 := by omega
    rw [outsAt0_A m c (⟨0, h⟩ : Fin cfg0.N) h0 h1]
    dsimp only
    refine (congrFun (sout_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))) (ix2 p k)).trans ?_
    refine (tileAdd_apply (k0_pay3 (F := Ideal)) (iblk m c 0 (⟨0, h⟩ : Fin cfg0.N)) (iblk m c 1 (⟨0, h⟩ : Fin cfg0.N)) p k).trans ?_
    rw [zeroBlock_apply, tile_of_rows (iblk m c 0 (⟨0, h⟩ : Fin cfg0.N)) (iblk m c 1 (⟨0, h⟩ : Fin cfg0.N)) p k (term m c i k) ⟨s, hs8⟩ (fun q j hj => rows_term m c (⟨0, h⟩ : Fin cfg0.N) p k i hi ⟨s, hs8⟩ hs q j hj), accum_succ _ s hs8]
    obtain rfl : s = 0 := hs
    rfl
  | n + 1, h, p, k, i, s, hi, hs => by
    have hN : cfg0.N = 32 := N_0
    have hs8 : s < 8 := by omega
    by_cases h0 : (⟨n + 1, h⟩ : Fin cfg0.N).val % 8 = 0
    · have h1 : ¬(⟨n + 1, h⟩ : Fin cfg0.N).val % 8 = 7 := by omega
      rw [outsAt0_A m c (⟨n + 1, h⟩ : Fin cfg0.N) h0 h1]
      dsimp only
      refine (congrFun (sout_A c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))) (ix2 p k)).trans ?_
      refine (tileAdd_apply (k0_pay3 (F := Ideal)) (iblk m c 0 (⟨n + 1, h⟩ : Fin cfg0.N)) (iblk m c 1 (⟨n + 1, h⟩ : Fin cfg0.N)) p k).trans ?_
      rw [zeroBlock_apply, tile_of_rows (iblk m c 0 (⟨n + 1, h⟩ : Fin cfg0.N)) (iblk m c 1 (⟨n + 1, h⟩ : Fin cfg0.N)) p k (term m c i k) ⟨s, hs8⟩ (fun q j hj => rows_term m c (⟨n + 1, h⟩ : Fin cfg0.N) p k i hi ⟨s, hs8⟩ hs q j hj), accum_succ _ s hs8]
      obtain rfl : s = 0 := hs.trans h0
      rfl
    · have ih := scratch_eq c n (Nat.lt_of_succ_lt h) p k i (s - 1) (by have := hi; dsimp only at h0; omega) (by dsimp only at h0; omega)
      rw [show s - 1 + 1 = s by dsimp only at h0; omega] at ih
      by_cases h1 : (⟨n + 1, h⟩ : Fin cfg0.N).val % 8 = 7
      · rw [outsAt0_C m c (⟨n + 1, h⟩ : Fin cfg0.N) h0 h1]
        dsimp only
        refine (congrFun (sout_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2) (ix2 p k)).trans ?_
        refine (tileAdd_apply (outsAt0 m c ((⟨n + 1, h⟩ : Fin cfg0.N).val - 1) (Nat.lt_of_le_of_lt (Nat.sub_le _ _) (⟨n + 1, h⟩ : Fin cfg0.N).isLt)).2 (iblk m c 0 (⟨n + 1, h⟩ : Fin cfg0.N)) (iblk m c 1 (⟨n + 1, h⟩ : Fin cfg0.N)) p k).trans ?_
        rw [tile_of_rows (iblk m c 0 (⟨n + 1, h⟩ : Fin cfg0.N)) (iblk m c 1 (⟨n + 1, h⟩ : Fin cfg0.N)) p k (term m c i k) ⟨s, hs8⟩ (fun q j hj => rows_term m c (⟨n + 1, h⟩ : Fin cfg0.N) p k i hi ⟨s, hs8⟩ hs q j hj), accum_succ _ s hs8]
        exact congrArg (· + _) ih
      · rw [outsAt0_B m c (⟨n + 1, h⟩ : Fin cfg0.N) h0 h1]
        dsimp only
        refine (congrFun (sout_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2) (ix2 p k)).trans ?_
        refine (tileAdd_apply (outsAt0 m c ((⟨n + 1, h⟩ : Fin cfg0.N).val - 1) (Nat.lt_of_le_of_lt (Nat.sub_le _ _) (⟨n + 1, h⟩ : Fin cfg0.N).isLt)).2 (iblk m c 0 (⟨n + 1, h⟩ : Fin cfg0.N)) (iblk m c 1 (⟨n + 1, h⟩ : Fin cfg0.N)) p k).trans ?_
        rw [tile_of_rows (iblk m c 0 (⟨n + 1, h⟩ : Fin cfg0.N)) (iblk m c 1 (⟨n + 1, h⟩ : Fin cfg0.N)) p k (term m c i k) ⟨s, hs8⟩ (fun q j hj => rows_term m c (⟨n + 1, h⟩ : Fin cfg0.N) p k i hi ⟨s, hs8⟩ hs q j hj), accum_succ _ s hs8]
        exact congrArg (· + _) ih

/-- The weighted term, through the host's mask array: input times (keep-mask times indicator). -/
theorem term_eq (c : Dev nD) (i : Fin 64) (k : Fin 1024) :
    term m c i k = fun j => @HMul.hMul EReal EReal EReal _ (m ((c : Thread nD τ).loc main_arg0) (ix3 i j k))
      (@HMul.hMul EReal EReal EReal _ (m ((c : Thread nD τ).loc main_arg2) (ix3 i j (0 : Fin 1)))
        (Cert.SegMLP.valid (Cert.SegMLP.endInd (m ((c : Thread nD τ).loc main_arg1)) (ix1 i)) j)) := by
  funext j
  unfold term
  rw [V_mask, maskOf_apply]

/-- The result array the kernel computes, as a function of the arguments. -/
abbrev kerArr (c : Dev nD) : Buf (Elt Ideal) ((c : Thread nD τ).loc main_v19) :=
  Cert.SegMLP.kerOut (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What the last sequence tile of a batch tile writes back is that batch tile's block of `kerArr`. -/
theorem flushed_eq (c : Dev nD) (t : Fin cfg0.N) (hf : (cfg0.win 7).flush t = true) :
    (dats m 0 c).flushed 7 t = ((cfg0.win 7).blk t).view.read (Elt Ideal) (kerArr m c) := by
  have hN : cfg0.N = 32 := N_0
  have h1 : t.val % 8 = 7 := (flush0_7 t).mp hf
  have h0 : ¬t.val % 8 = 0 := by omega
  obtain ⟨-, -, -, -, -, -, -, -, -, -, -, -, -, -, h70, h71⟩ := idx_facts t
  rw [Value.flushed7_C m c t h0 h1]
  refine funext fun (y : S16x2.Idx) => ?_
  obtain ⟨p, o, rfl⟩ : ∃ (p : Fin 16) (o : Fin 2), y = ix2 p o := ⟨y 0, y 1, eq_ix2 y⟩
  have hi64 : 16 * (t.val / 8) + p.val < 64 := by have := t.isLt; have := p.isLt; omega
  have he : ((cfg0.win 7).blk t).view.emb (ix2 p o) = ix2 (⟨16 * (t.val / 8) + p.val, hi64⟩ : Fin 64) o :=
    funext fun a => Fin.ext (by
      match a with
      | ⟨0, _⟩ => show win0_7.index t (0 : Fin 2) * 16 + 1 * p.val = 16 * (t.val / 8) + p.val; rw [h70]; omega
      | ⟨1, _⟩ => show win0_7.index t (1 : Fin 2) * 2 + 1 * o.val = o.val; rw [h71]; omega)
  show out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (ix2 p o) = kerArr m c (((cfg0.win 7).blk t).view.emb (ix2 p o))
  rw [he]
  refine (congrFun (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p o)).trans ?_
  refine (pay2_apply (iblk m c 2 t) (tileAdd (outsAt0 m c (t.val - 1) (Nat.lt_of_le_of_lt (Nat.sub_le _ _) t.isLt)).2 (iblk m c 0 t) (iblk m c 1 t)) (iblk m c 3 t) (iblk m c 4 t)
    (iblk m c 5 t) (iblk m c 6 t) p o).trans ?_
  show _ = Cert.SegMLP.mlp _ _ _ _ _ (⟨16 * (t.val / 8) + p.val, hi64⟩ : Fin 64) o
  unfold Cert.SegMLP.mlp
  have hacc : ∀ k : Fin 1024, tileAdd (outsAt0 m c (t.val - 1) (Nat.lt_of_le_of_lt (Nat.sub_le _ _) t.isLt)).2 (iblk m c 0 t) (iblk m c 1 t) (ix2 p k)
      = Cert.SegMLP.accum (term m c ⟨16 * (t.val / 8) + p.val, hi64⟩ k) 8 := fun k => by
    have e1 : (outsAt0 m c t.val t.isLt).2 (ix2 p k) = tileAdd (outsAt0 m c (t.val - 1) (Nat.lt_of_le_of_lt (Nat.sub_le _ _) t.isLt)).2 (iblk m c 0 t) (iblk m c 1 t) (ix2 p k) := by
      rw [outsAt0_C m c t h0 h1]
      dsimp only
      exact congrFun (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p k)
    exact e1.symm.trans (scratch_eq m c t.val t.isLt p k ⟨16 * (t.val / 8) + p.val, hi64⟩ 7 rfl h1.symm)
  rw [iblk6_apply, iblk2_apply m c t p (0 : Fin 1) ⟨16 * (t.val / 8) + p.val, hi64⟩ rfl, V_lenCol, lenColOf_apply]
  congr 1
  refine Finset.sum_congr rfl fun h _ => ?_
  rw [iblk5_apply, iblk4_apply]
  congr 2
  congr 1
  refine Finset.sum_congr rfl fun k _ => ?_
  rw [iblk3_apply, hacc k, term_eq]
  rfl

/-- An index of the result array lies in point `t`'s block iff its row lies in the batch tile and its column anywhere. -/
theorem mem_blk (t : Fin cfg0.N) (i : S64x2.Idx) :
    i ∈ ((cfg0.win 7).blk t).view.set ↔ ∀ a : Fin 2, win0_7.index t a * S16x2.size a ≤ (i a).val
      ∧ (i a).val < win0_7.index t a * S16x2.size a + S16x2.size a := by
  show i ∈ ((View.whole main_v19).slice (win0_7.rect t)).set ↔ _
  rw [View.set_slice_whole, Rect.mem_set_unit]
  exact Iff.rfl

/-- The four written blocks cover the result array, so it ends holding `kerArr`. -/
theorem final (c : Dev nD) : (dats m 0 c).arrAt 7 cfg0.N = kerArr m c :=
  (dats m 0 c).arrAt_eq_of_cover 7 (kerArr m c) (fun t hf => flushed_eq m c t hf) fun i => by
    have hN : cfg0.N = 32 := N_0
    have hi0 : (i 0).val < 64 := (i 0).isLt
    have hi1 : (i 1).val < 2 := (i 1).isLt
    refine ⟨⟨8 * ((i 0).val / 16) + 7, by omega⟩, (flush0_7 _).mpr (by dsimp only; omega), ?_⟩
    obtain ⟨-, -, -, -, -, -, -, -, -, -, -, -, -, -, h70, h71⟩ := idx_facts ⟨8 * ((i 0).val / 16) + 7, by omega⟩
    rw [mem_blk]
    intro a
    match a with
    | ⟨0, _⟩ =>
      show win0_7.index _ (0 : Fin 2) * 16 ≤ (i 0).val ∧ (i 0).val < win0_7.index _ (0 : Fin 2) * 16 + 16
      rw [h70]; dsimp only; omega
    | ⟨1, _⟩ =>
      show win0_7.index _ (1 : Fin 2) * 2 ≤ (i 1).val ∧ (i 1).val < win0_7.index _ (1 : Fin 2) * 2 + 2
      rw [h71]; omega

/-- The kernel's run: the result array ends holding `kerOut` of the arguments, which end unchanged. -/
theorem run : θ_run defs (onTc (τ := τ) (main (F := Ideal))) ⟨m, fun _ => 0, ρ⟩ fun r => ∀ c : Dev nD,
      r.2.mem ((c : Thread nD τ).loc main_v19) = kerArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KValue

end
-- ==== Proof.lean ====
/-
  The certificate of a fused segment-average and perceptron kernel against its jnp reference.

  For each of 64 rows both programs find the segment length `E i` (the first position holding the marker 1, else 64),
  weight the row's 2048 x 1024 block by a keep-mask and by the indicator `j < E i`, sum over the positions, divide by the
  length, and apply a two-layer perceptron with a hyperbolic tangent.  The reference divides by `E i`; the kernel divides
  by `max (max (E i) 1) 1`, groups the keep-mask with the indicator, and adds the positions in eight sequence tiles of
  eight chunks of 32 carried in an accumulator across a 4 x 8 grid.  Over the extended reals a finite sum may be
  regrouped and multiplication is associative, so the two sums agree; where `E i >= 1` the guards are the identity, and
  where `E i < 0` every indicator vanishes and both quotients are zero.  At `E i = 0` the reference divides zero by
  zero: the precondition excludes it.

  The kernel's frames are the generated ones; its value is read off the generated frame run (`KValue`), the reference's
  run is written out operation by operation (`RefRun`, `RefRead`), and `Bridge` joins the two specifications.
-/
import proofs.«100456_j75849122448044_2_alg».proof.Defs
import proofs.«100456_j75849122448044_2_alg».proof.Proof.Gen.Kernel
import proofs.«100456_j75849122448044_2_alg».proof.Proof.Gen.Kernel.Frame
import proofs.«100456_j75849122448044_2_alg».proof.Proof.Gen.KernelIdeal
import proofs.«100456_j75849122448044_2_alg».proof.Proof.Gen.KernelIdeal.Frame
import proofs.«100456_j75849122448044_2_alg».proof.Proof.Gen.KernelIdeal.Value
import proofs.«100456_j75849122448044_2_alg».proof.Proof.Gen.ReferenceIdeal
import proofs.«100456_j75849122448044_2_alg».proof.Proof.Gen.Pre_finite_inputs
import proofs.«100456_j75849122448044_2_alg».proof.Proof.Spec
import proofs.«100456_j75849122448044_2_alg».proof.Proof.Bridge
import proofs.«100456_j75849122448044_2_alg».proof.Proof.PreDomain
import proofs.«100456_j75849122448044_2_alg».proof.Proof.RefRun
import proofs.«100456_j75849122448044_2_alg».proof.Proof.RefRead
import proofs.«100456_j75849122448044_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- The kernel's result array ends at `kerOut` of its arguments and the reference's at `refOut` of arguments that agree;
    the precondition gives every segment length nonzero, and there the two are one function. -/
theorem algebraic : Cert.algebraic_KernelIdeal_ReferenceIdeal := by
  intro m ρ m' ρ' hpre hagree
  refine ⟨fun c => Cert.KernelIdeal.KValue.kerArr m c, Cert.KernelIdeal.KValue.run m ρ, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4, e5, e6⟩ := hagree c
  rw [e0, e1, e2, e3, e4, e5, e6]
  exact (Cert.SegMLP.kerOut_eq_refOut _ _ _ _ _ _ _
    (Cert.SegMLP.endInd_ne_zero_of_pre _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
